-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S4x1x64x64 : Shape := ⟨4, ![4, 1, 64, 64]⟩
abbrev S_ : Shape := ⟨0, ![]⟩
abbrev S4x128x4096 : Shape := ⟨3, ![4, 128, 4096]⟩
abbrev S4x4096x128 : Shape := ⟨3, ![4, 4096, 128]⟩
abbrev S4x4096 : Shape := ⟨2, ![4, 4096]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S4x1x64x64 : S_.BroadcastsInDim S4x1x64x64 (![] : Fin 0 → Fin S4x1x64x64.rank)
  reducesTo_S4x1x64x64_S_d0_1_2_3 : S4x1x64x64.ReducesTo [0, 1, 2, 3] S_
  bcast_S4x1x64x64_S4x128x64x64_0_1_2_3 : S4x1x64x64.BroadcastsInDim S4x128x64x64 (![0, 1, 2, 3] : Fin 4 → Fin S4x128x64x64.rank)
  shapeCasts_S4x128x64x64_S4x128x4096 : S4x128x64x64.ShapeCasts S4x128x4096
  transposes_S4x128x4096_S4x4096x128_0_2_1 : S4x128x4096.Transposes [0, 2, 1] S4x4096x128
  bcast_S_S4x4096x128 : S_.BroadcastsInDim S4x4096x128 (![] : Fin 0 → Fin S4x4096x128.rank)
  reducesTo_S4x4096x128_S4x4096_d2 : S4x4096x128.ReducesTo [2] S4x4096
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_v8 : IVec S_ 1) (main_v16 : FVec F S4x4096 .f32) (main_cst_4 : FVec F S_ .f32) : IVec S_ 1 :=
  let main_v17 : FVec F S4x4096 .f32 := broadcastInDim S4x4096 ![] bcast_S_S4x4096 main_cst_4
  let main_v18 : IVec S4x4096 1 := cmpf .ogt main_v16 main_v17
  let main_c_5 : IVec S_ 1 := constantI S_ 1 1#1
  let main_v19 : IVec S_ 1 := (fun x v => Host.reduce IntOp.andi x v reducesTo_S4x4096_S_d0_1 h_S_) main_v18 main_c_5
  let main_v20 : IVec S_ 1 := andi main_v8 main_v19
  main_v20

def fn {F : FTy → Type} [FloatOps F] (main_arg0 : FVec F S4x128x64x64 .f32) (main_arg1 : FVec F S4x1x64x64 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x1x64x64 .f32 := Host.absf main_arg1
  let main_cst_0 : FVec F S_ .f32 := constant S_ .f32 0x7F800000#32
  let main_v5 : FVec F S4x1x64x64 .f32 := broadcastInDim S4x1x64x64 ![] bcast_S_S4x1x64x64 main_cst_0
  let main_v6 : IVec S4x1x64x64 1 := cmpf .olt main_v4 main_v5
  let main_c_1 : IVec S_ 1 := constantI S_ 1 1#1
  let main_v7 : IVec S_ 1 := (fun x v => Host.reduce IntOp.andi x v reducesTo_S4x1x64x64_S_d0_1_2_3 h_S_) main_v6 main_c_1
  let main_v8 : IVec S_ 1 := andi main_v3 main_v7
  let main_v9 : FVec F S4x128x64x64 .f32 := broadcastInDim S4x128x64x64 ![0, 1, 2, 3] bcast_S4x1x64x64_S4x128x64x64_0_1_2_3 main_arg1
  let main_v10 : FVec F S4x128x64x64 .f32 := mulf main_arg0 main_v9
  let main_v11 : FVec F S4x128x4096 .f32 := shapeCast S4x128x4096 main_v10 shapeCasts_S4x128x64x64_S4x128x4096
  let main_v12 : FVec F S4x4096x128 .f32 := (transpose S4x4096x128 [0, 2, 1] · transposes_S4x128x4096_S4x4096x128_0_2_1) main_v11
  let main_cst_2 : FVec F S_ .f32 := constant S_ .f32 0x33D6BF95#32
  let main_v13 : FVec F S4x4096x128 .f32 := broadcastInDim S4x4096x128 ![] bcast_S_S4x4096x128 main_cst_2
  let main_v14 : FVec F S4x4096x128 .f32 := addf main_v12 main_v13
  let main_v15 : FVec F S4x4096x128 .f32 := mulf main_v14 main_v14
  let main_cst_3 : FVec F S_ .f32 := constant S_ .f32 0x00000000#32
  let main_v16 : FVec F S4x4096 .f32 := (fun x v => Host.reduceAdd x v reducesTo_S4x4096x128_S4x4096_d2 h_S_) main_v15 main_cst_3
  let main_cst_4 : FVec F S_ .f32 := constant S_ .f32 0x00000000#32
  fn_part1 (F := F) main_v8 main_v16 main_cst_4
-- ==== Kernel.lean ====
abbrev S4x128x64x64 : Shape := ⟨4, ![4, 128, 64, 64]⟩
abbrev S4x1x64x64 : Shape := ⟨4, ![4, 1, 64, 64]⟩
abbrev S4x128x4096 : Shape := ⟨3, ![4, 128, 4096]⟩
abbrev S4x4096x128 : Shape := ⟨3, ![4, 4096, 128]⟩
abbrev S_ : Shape := ⟨0, ![]⟩
abbrev S4x2048x128 : Shape := ⟨3, ![4, 2048, 128]⟩
abbrev S4x1024x128 : Shape := ⟨3, ![4, 1024, 128]⟩
abbrev S4x2048x1 : Shape := ⟨3, ![4, 2048, 1]⟩
abbrev S4x1024 : Shape := ⟨2, ![4, 1024]⟩
abbrev S4x1024x1 : Shape := ⟨3, ![4, 1024, 1]⟩
abbrev S4x2048x1024 : Shape := ⟨3, ![4, 2048, 1024]⟩
abbrev S4x2048 : Shape := ⟨2, ![4, 2048]⟩

abbrev nBuf : Space → Nat
  | .hbm => 20
  | .vmem => 9
  | .smem => 0
  | _ => 0

abbrev bufTy : (tb : Table) → Fin (tcTables nBuf tb) → BufTy
  | .hbm, ⟨0, _⟩ => ⟨S4x128x64x64, .f32⟩
  | .hbm, ⟨1, _⟩ => ⟨S4x1x64x64, .f32⟩
  | .hbm, ⟨2, _⟩ => ⟨S4x128x64x64, .f32⟩
  | .hbm, ⟨3, _⟩ => ⟨S4x128x64x64, .f32⟩
  | .hbm, ⟨4, _⟩ => ⟨S4x128x4096, .f32⟩
  | .hbm, ⟨5, _⟩ => ⟨S4x4096x128, .f32⟩
  | .hbm, ⟨6, _⟩ => ⟨S_, .f32⟩
  | .hbm, ⟨7, _⟩ => ⟨S4x4096x128, .f32⟩
  | .hbm, ⟨8, _⟩ => ⟨S4x4096x128, .f32⟩
  | .hbm, ⟨9, _⟩ => ⟨S4x128x4096, .f32⟩
  | .hbm, ⟨10, _⟩ => ⟨S4x4096x128, .f32⟩
  | .hbm, ⟨11, _⟩ => ⟨S4x4096x128, .f32⟩
  | .hbm, ⟨12, _⟩ => ⟨S4x128x4096, .f32⟩
  | .hbm, ⟨13, _⟩ => ⟨S4x128x64x64, .f32⟩
  | .hbm, ⟨14, _⟩ => ⟨S_, .f32⟩
  | .hbm, ⟨15, _⟩ => ⟨S4x1x64x64, .f32⟩
  | .hbm, ⟨16, _⟩ => ⟨S4x1x64x64, .f32⟩
  | .hbm, ⟨17, _⟩ => ⟨S4x128x64x64, .f32⟩
  | .hbm, ⟨18, _⟩ => ⟨S4x128x64x64, .f32⟩
  | .hbm, ⟨19, _⟩ => ⟨S4x128x64x64, .f32⟩
  | .local _ .vmem, ⟨0, _⟩ => ⟨S4x2048x128, .f32⟩
  | .local _ .vmem, ⟨1, _⟩ => ⟨S4x2048x128, .f32⟩
  | .local _ .vmem, ⟨2, _⟩ => ⟨S4x1024x128, .f32⟩
  | .local _ .vmem, ⟨3, _⟩ => ⟨S4x1024x128, .f32⟩
  | .local _ .vmem, ⟨4, _⟩ => ⟨S4x2048x128, .f32⟩
  | .local _ .vmem, ⟨5, _⟩ => ⟨S4x2048x128, .f32⟩
  | .local _ .vmem, ⟨6, _⟩ => ⟨S4x2048x1, .f32⟩
  | .local _ .vmem, ⟨7, _⟩ => ⟨S4x2048x1, .f32⟩
  | .local _ .vmem, ⟨8, _⟩ => ⟨S4x2048x128, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_31 : BitVec 32 := 0#32
  let v45 : BitVec 1 := Scalar.cmpi .ne v44 c0_i32_31
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S4x1x64x64_S4x128x64x64_0_1_2_3 : S4x1x64x64.BroadcastsInDim S4x128x64x64 (![0, 1, 2, 3] : Fin 4 → Fin S4x128x64x64.rank)
  shapeCasts_S4x128x64x64_S4x128x4096 : S4x128x64x64.ShapeCasts S4x128x4096
  transposes_S4x128x4096_S4x4096x128_0_2_1 : S4x128x4096.Transposes [0, 2, 1] S4x4096x128
  bcast_S_S4x4096x128 : S_.BroadcastsInDim S4x4096x128 (![] : Fin 0 → Fin S4x4096x128.rank)
  inb_S4x2048x1_S4x2048x1_0_0_0 : ∀ a, (![0, 0, 0] : Fin 3 → Nat) a + S4x2048x1.size a ≤ S4x2048x1.size a
  h_S4x2048x1 : 0 < S4x2048x1.numel
  shapeCasts_S4x2048x1_S4x2048x1 : S4x2048x1.ShapeCasts S4x2048x1
  inb_S4x2048x128_S4x2048x128_0_0_0 : ∀ a, (![0, 0, 0] : Fin 3 → Nat) a + S4x2048x128.size a ≤ S4x2048x128.size a
  h_S4x2048x128 : 0 < S4x2048x128.numel
  shapeCasts_S4x2048x128_S4x2048x128 : S4x2048x128.ShapeCasts S4x2048x128
  inb_S4x1024x128_S4x1024x128_0_0_0 : ∀ a, (![0, 0, 0] : Fin 3 → Nat) a + S4x1024x128.size a ≤ S4x1024x128.size a
  h_S4x1024x128 : 0 < S4x1024x128.numel
  shapeCasts_S4x1024x128_S4x1024x128 : S4x1024x128.ShapeCasts S4x1024x128
  reduces_S4x1024x128_S4x1024 : S4x1024x128.Reduces [2] S4x1024
  shapeCasts_S4x1024_S4x1024x1 : S4x1024.ShapeCasts S4x1024x1
  broadcasts_S4x1024x1_S4x1024x128 : S4x1024x1.Broadcasts S4x1024x128
  reduces_S4x2048x1024_S4x2048 : S4x2048x1024.Reduces [2] S4x2048
  shapeCasts_S4x2048_S4x2048x1 : S4x2048.ShapeCasts S4x2048x1
  broadcasts_S4x2048x1_S4x2048x1024 : S4x2048x1.Broadcasts S4x2048x1024
  broadcasts_S4x2048x1_S4x2048x128 : S4x2048x1.Broadcasts S4x2048x128
  transposes_S4x4096x128_S4x128x4096_0_2_1 : S4x4096x128.Transposes [0, 2, 1] S4x128x4096
  shapeCasts_S4x128x4096_S4x128x64x64 : S4x128x4096.ShapeCasts S4x128x64x64
  bcast_S_S4x1x64x64 : S_.BroadcastsInDim S4x1x64x64 (![] : Fin 0 → Fin S4x1x64x64.rank)
  dot_S4x2048x128_S4x1024x128_S4x2048x1024_2_2_1_1_0_0_wf : DotDims.WF S4x2048x128 S4x1024x128 S4x2048x1024 [2] [2] [1] [1] [0] [0]
  dot_S4x2048x1024_S4x1024x128_S4x2048x128_2_1_1_2_0_0_wf : DotDims.WF S4x2048x1024 S4x1024x128 S4x2048x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x128.size a ≤ S4x4096x128.size a
  hwx0_0 : ∀ i : grid0.Coords, EltTy.bits .f32 = 32 ∨ (Rect.block (s := S4x4096x128) S4x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x128.size a ≤ S4x4096x128.size a
  hwx0_1 : ∀ i : grid0.Coords, EltTy.bits .f32 = 32 ∨ (Rect.block (s := S4x4096x128) S4x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048x128.size a ≤ S4x4096x128.size a
  hwx0_2 : ∀ i : grid0.Coords, EltTy.bits .f32 = 32 ∨ (Rect.block (s := S4x4096x128) S4x2048x128.size (cc0_transform_2 i) (hinb0_2 i)).WholeWords (EltTy.packing .f32)

variable [Facts₀]

def dot_S4x2048x128_S4x1024x128_S4x2048x1024_2_2_1_1_0_0 : DotDims S4x2048x128 S4x1024x128 S4x2048x1024 where
  lhsContracting := [2]
  rhsContracting := [2]
  lhsNonContracting := [1]
  rhsNonContracting := [1]
  lhsBatch := [0]
  rhsBatch := [0]
  wf := dot_S4x2048x128_S4x1024x128_S4x2048x1024_2_2_1_1_0_0_wf
def dot_S4x2048x1024_S4x1024x128_S4x2048x128_2_1_1_2_0_0 : DotDims S4x2048x1024 S4x1024x128 S4x2048x128 where
  lhsContracting := [2]
  rhsContracting := [1]
  lhsNonContracting := [1]
  rhsNonContracting := [2]
  lhsBatch := [0]
  rhsBatch := [0]
  wf := dot_S4x2048x1024_S4x1024x128_S4x2048x128_2_1_1_2_0_0_wf

abbrev win0_0 : Pipeline.Window sig grid0 :=
  Pipeline.Window.ofSpec (Memref.whole main_v7) S4x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x128x64x64 : Shape := ⟨4, ![4, 128, 64, 64]⟩
abbrev S4x1x64x64 : Shape := ⟨4, ![4, 1, 64, 64]⟩
abbrev S4x128x4096 : Shape := ⟨3, ![4, 128, 4096]⟩
abbrev S4x4096x128 : Shape := ⟨3, ![4, 4096, 128]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S4x1x64x64, .f32⟩
  | .hbm, ⟨2, _⟩ => ⟨S4x128x64x64, .f32⟩
  | .hbm, ⟨3, _⟩ => ⟨S4x128x64x64, .f32⟩
  | .hbm, ⟨4, _⟩ => ⟨S4x128x4096, .f32⟩
  | .hbm, ⟨5, _⟩ => ⟨S4x4096x128, .f32⟩
  | .hbm, ⟨6, _⟩ => ⟨S_, .f32⟩
  | .hbm, ⟨7, _⟩ => ⟨S4x4096x128, .f32⟩
  | .hbm, ⟨8, _⟩ => ⟨S4x4096x128, .f32⟩
  | .hbm, ⟨9, _⟩ => ⟨S4x4096x128, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S4x4096x1, .f32⟩
  | .hbm, ⟨14, _⟩ => ⟨S4x4096x128, .f32⟩
  | .hbm, ⟨15, _⟩ => ⟨S4x4096x128, .f32⟩
  | .hbm, ⟨16, _⟩ => ⟨S4x128x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S4x1x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S4x128x4096, .f32⟩
  | .hbm, ⟨33, _⟩ => ⟨S4x128x64x64, .f32⟩
  | .hbm, ⟨34, _⟩ => ⟨S_, .f32⟩
  | .hbm, ⟨35, _⟩ => ⟨S4x1x64x64, .f32⟩
  | .hbm, ⟨36, _⟩ => ⟨S4x1x64x64, .f32⟩
  | .hbm, ⟨37, _⟩ => ⟨S4x128x64x64, .f32⟩
  | .hbm, ⟨38, _⟩ => ⟨S4x128x64x64, .f32⟩
  | .hbm, ⟨39, _⟩ => ⟨S4x128x64x64, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  bcast_S4x1x64x64_S4x128x64x64_0_1_2_3 : S4x1x64x64.BroadcastsInDim S4x128x64x64 (![0, 1, 2, 3] : Fin 4 → Fin S4x128x64x64.rank)
  shapeCasts_S4x128x64x64_S4x128x4096 : S4x128x64x64.ShapeCasts S4x128x4096
  transposes_S4x128x4096_S4x4096x128_0_2_1 : S4x128x4096.Transposes [0, 2, 1] S4x4096x128
  bcast_S_S4x4096x128 : S_.BroadcastsInDim S4x4096x128 (![] : Fin 0 → Fin S4x4096x128.rank)
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  bcast_S4x4096x1_S4x4096x128_0_1_2 : S4x4096x1.BroadcastsInDim S4x4096x128 (![0, 1, 2] : Fin 3 → Fin S4x4096x128.rank)
  reducesTo_S4x4096x4096_S4x4096_d1 : S4x4096x4096.ReducesTo [1] S4x4096
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  shapeCasts_S4x128x4096_S4x128x64x64 : S4x128x4096.ShapeCasts S4x128x64x64
  bcast_S_S4x1x64x64 : S_.BroadcastsInDim S4x1x64x64 (![] : Fin 0 → Fin S4x1x64x64.rank)
  dot_S4x4096x128_S4x128x4096_S4x4096x4096_2_1_1_2_0_0_wf : DotDims.WF S4x4096x128 S4x128x4096 S4x4096x4096 [2] [1] [1] [2] [0] [0]
  dot_S4x4096x128_S4x4096x4096_S4x128x4096_1_1_2_2_0_0_wf : DotDims.WF S4x4096x128 S4x4096x4096 S4x128x4096 [1] [1] [2] [2] [0] [0]

variable [Facts₀]

def dot_S4x4096x128_S4x128x4096_S4x4096x4096_2_1_1_2_0_0 : DotDims S4x4096x128 S4x128x4096 S4x4096x4096 where
  lhsContracting := [2]
  rhsContracting := [1]
  lhsNonContracting := [1]
  rhsNonContracting := [2]
  lhsBatch := [0]
  rhsBatch := [0]
  wf := dot_S4x4096x128_S4x128x4096_S4x4096x4096_2_1_1_2_0_0_wf
def dot_S4x4096x128_S4x4096x4096_S4x128x4096_1_1_2_2_0_0 : DotDims S4x4096x128 S4x4096x4096 S4x128x4096 where
  lhsContracting := [1]
  rhsContracting := [1]
  lhsNonContracting := [2]
  rhsNonContracting := [2]
  lhsBatch := [0]
  rhsBatch := [0]
  wf := dot_S4x4096x128_S4x4096x4096_S4x128x4096_1_1_2_2_0_0_wf

class Facts : Prop extends Facts₀ where

variable [Facts]
-- ==== Proof.Spec.lean ====
/-
  The attention both programs compute, stated once over the extended reals and free of any program.

  K is the array of patch vectors, [batch 4, patch 4096, channel 128]; X the feature array, [batch 4, channel 128,
  pixel 4096]. For a batch b, every patch p is normalised by the square root of the sum of squares of its channels,
  scored against every pixel n by the inner product over the channels, the scores are soft-maxed over the PATCHES for
  each pixel, and the un-normalised patch vectors are averaged with these weights:
      agg b c n = sum over p of  K b p c * ( exp (score b p n - max_p') / sum over p' of exp (score b p' n - max_p') ).
  Every operation is the ideal float instance's (division, square root and exponential of extended reals).
-/
import Idealize.ShloMosaic.PureOps.Ideal
import Idealize.ShloMosaic.Lib.ValueIdx

noncomputable section

open scoped BigOperators

namespace Sffa

open Idealize.ShloMosaic Idealize.ShloMosaic.ValueIdx

/-- The shape of the patch array: batch, patch, channel. -/
abbrev SK : Shape := ⟨3, ![4, 4096, 128]⟩
/-- The shape of the feature array: batch, channel, pixel. -/
abbrev SX : Shape := ⟨3, ![4, 128, 4096]⟩

variable (K : SK.Idx → EReal) (X : SX.Idx → EReal)

/-- The sum over the channels of the squares of patch p's entries. -/
def ssq (b : Fin 4) (p : Fin 4096) : EReal := ∑ c : Fin 128, K (ix3 b p c) * K (ix3 b p c)

/-- Patch p's entry c divided by the patch's Euclidean norm. -/
def knorm (b : Fin 4) (p : Fin 4096) (c : Fin 128) : EReal := Ideal.div (K (ix3 b p c)) (Ideal.sqrt (ssq K b p))

/-- The score of patch p at pixel n: the inner product over the channels of the normalised patch and the pixel's features. -/
def score (b : Fin 4) (p n : Fin 4096) : EReal := ∑ c : Fin 128, knorm K b p c * X (ix3 b c n)

/-- The largest score at pixel n, folded from -∞ over the patches. -/
def smax (b : Fin 4) (n : Fin 4096) : EReal := Finset.univ.fold max ⊥ (fun p : Fin 4096 => score K X b p n)

/-- exp (score - largest score). -/
def sexp (b : Fin 4) (p n : Fin 4096) : EReal := Ideal.exp (score K X b p n - smax K X b n)

/-- The soft-max normaliser at pixel n. -/
def sden (b : Fin 4) (n : Fin 4096) : EReal := ∑ p : Fin 4096, sexp K X b p n

/-- The soft-max weight of patch p at pixel n. -/
def attn (b : Fin 4) (p n : Fin 4096) : EReal := Ideal.div (sexp K X b p n) (sden K X b n)

/-- The attention-weighted average of the patch vectors, at channel c and pixel n. -/
def agg (b : Fin 4) (c : Fin 128) (n : Fin 4096) : EReal := ∑ p : Fin 4096, K (ix3 b p c) * attn K X b p n

end Sffa

end
-- ==== Proof.LibOnlineSoftmax.lean ====
/-
  The online (streaming) softmax-weighted sum, over the extended reals.

  A softmax-weighted sum  out d = ∑ i, (exp (x i - M) / ∑ i', exp (x i' - M)) * w i d,  M the maximum of the scores
  x, can be evaluated block by block without ever holding all the scores: keep a running maximum m, a running
  normaliser l and an unnormalised accumulator acc; a new block of scores S and values V updates them by
      m'     = max m (max of S),
      l'     = exp (m - m') * l     + ∑ k, exp (S k - m'),
      acc' d = exp (m - m') * acc d + ∑ k, exp (S k - m') * V k d,
  from m = -∞, l = 0, acc = 0; at the end out d = acc d / l. Rescaling by exp (m - m') re-bases everything summed so
  far from the old maximum to the new one, because exp (m - m') * exp (x - m) = exp (x - m').

  This file states the recursion (step, run) over the extended reals with the ideal float instance's exp and division
  (exp ⊥ = 0, so the first block's rescaling factor is 0 and the start values do not matter), and proves that for
  REAL scores and values, nonempty blocks and at least one block, the blockwise evaluation equals the softmax-weighted
  sum over all the scores at once (online_eq_softmax), for any way e of numbering the (block, position) pairs.
  Nothing here mentions a program.
-/
import Idealize.ShloMosaic.PureOps.Ideal

noncomputable section

namespace OnlineSoftmax

open scoped BigOperators
open Idealize.ShloMosaic

variable {n : ℕ} {K D ι : Type*} [Fintype K] [Fintype ι]

/-! ## The recursion -/

/-- What is carried from block to block for one query row: the running maximum, the running normaliser and the
    unnormalised accumulator (one entry per output column). -/
structure Row (D : Type*) where
  m : EReal
  l : EReal
  acc : D → EReal

/-- Before any block: maximum -∞, normaliser 0, accumulator 0. -/
def start : Row D := ⟨⊥, 0, fun _ => 0⟩

/-- One block of scores S and values V: the new maximum, and the old normaliser and accumulator re-based to it plus
    the block's own terms. -/
def step (S : K → EReal) (V : K → D → EReal) (r : Row D) : Row D :=
  ⟨max r.m (Finset.univ.fold max ⊥ S),
   Ideal.exp (r.m - max r.m (Finset.univ.fold max ⊥ S)) * r.l
     + ∑ k, Ideal.exp (S k - max r.m (Finset.univ.fold max ⊥ S)),
   fun d => Ideal.exp (r.m - max r.m (Finset.univ.fold max ⊥ S)) * r.acc d
     + ∑ k, Ideal.exp (S k - max r.m (Finset.univ.fold max ⊥ S)) * V k d⟩

/-- The state after the first i of the n blocks (and after all of them for i ≥ n). -/
def run (S : Fin n → K → EReal) (V : Fin n → K → D → EReal) : ℕ → Row D
  | 0 => start
  | i + 1 => if h : i < n then step (S ⟨i, h⟩) (V ⟨i, h⟩) (run S V i) else run S V i

/-- Unfolding the recursion at a block that exists. -/
theorem run_succ (S : Fin n → K → EReal) (V : Fin n → K → D → EReal) {i : ℕ} (h : i < n) :
    run S V (i + 1) = step (S ⟨i, h⟩) (V ⟨i, h⟩) (run S V i) := by
  rw [run, dif_pos h]

/-! ## Small facts about the extended reals -/

/-- The coercion of a finite real sum is the sum of the coercions. -/
theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, folded from -∞, of finitely many and at least one real numbers is a real number. -/
theorem fold_max_real {α : Type*} (T : Finset α) (hT : T.Nonempty) (f : α → EReal) (hf : ∀ a ∈ T, ∃ r : ℝ, f a = r) :
    ∃ r : ℝ, T.fold max ⊥ f = r := by
  have h1 : T.fold max ⊥ f ≠ ⊥ := by
    obtain ⟨a, ha⟩ := hT
    obtain ⟨r, hr⟩ := hf a ha
    have : ⊥ < T.fold max ⊥ f := (Finset.lt_fold_max _).2 (Or.inr ⟨a, ha, hr ▸ EReal.bot_lt_coe r⟩)
    exact this.ne'
  have h2 : T.fold max ⊥ f ≠ ⊤ := by
    have : T.fold max ⊥ f < ⊤ := (Finset.fold_max_lt _).2 ⟨bot_lt_top, fun a ha => by
      obtain ⟨r, hr⟩ := hf a ha
      rw [hr]
      exact EReal.coe_lt_top r⟩
    exact this.ne
  exact ⟨_, (EReal.coe_toReal h2 h1).symm⟩

/-- A maximum over all the pairs, folded from -∞, is the maximum over the blocks of each block's maximum. -/
theorem fold_max_blocks {α β : Type*} [Fintype α] [Fintype β] (e : α × β ≃ ι) (g : ι → EReal) :
    Finset.univ.fold max ⊥ g = Finset.univ.fold max ⊥ (fun a : α => Finset.univ.fold max ⊥ (fun b : β => g (e (a, b)))) := by
  refine le_antisymm ?_ ?_
  · refine (Finset.fold_max_le _).2 ⟨bot_le, fun i _ => ?_⟩
    refine (Finset.le_fold_max _).2 (Or.inr ⟨(e.symm i).1, Finset.mem_univ _, ?_⟩)
    refine (Finset.le_fold_max _).2 (Or.inr ⟨(e.symm i).2, Finset.mem_univ _, ?_⟩)
    rw [Prod.mk.eta, Equiv.apply_symm_apply]
  · refine (Finset.fold_max_le _).2 ⟨bot_le, fun a _ => ?_⟩
    refine (Finset.fold_max_le _).2 ⟨bot_le, fun b _ => ?_⟩
    exact (Finset.le_fold_max _).2 (Or.inr ⟨e (a, b), Finset.mem_univ _, le_rfl⟩)

/-! ## The blocks before a given one -/

/-- The blocks numbered below i. -/
def before (n i : ℕ) : Finset (Fin n) := Finset.univ.filter (fun j => j.val < i)

/-- No block is numbered below 0. -/
theorem before_zero : before n 0 = ∅ := by
  ext j; simp [before]

/-- The blocks below i + 1 are block i and the blocks below i. -/
theorem before_succ {i : ℕ} (h : i < n) : before n (i + 1) = insert ⟨i, h⟩ (before n i) := by
  ext j
  simp only [before, Finset.mem_filter, Finset.mem_univ, true_and, Finset.mem_insert, Fin.ext_iff]
  omega

/-- Block i is not among the blocks below i. -/
theorem not_mem_before {i : ℕ} (h : i < n) : (⟨i, h⟩ : Fin n) ∉ before n i := by
  simp [before]

/-- Every block is numbered below n. -/
theorem before_self : before n n = Finset.univ := by
  ext j; simp [before]

/-! ## The invariant, for real scores and values -/

section Real

variable (s : Fin n → K → ℝ) (v : Fin n → K → D → ℝ)

/-- The maximum, from -∞, of the scores of the blocks before i. -/
def runMax (i : ℕ) : EReal :=
  (before n i).fold max ⊥ (fun j => Finset.univ.fold max ⊥ (fun k => (s j k : EReal)))

/-- After i ≤ n blocks of real scores and values: the running maximum is the maximum M of the scores seen (a real
    number as soon as a block has been seen), the normaliser is the sum of exp (score - M) over them, and the
    accumulator the sum of exp (score - M) times the value. -/
theorem run_eq [Nonempty K] (i : ℕ) (hi : i ≤ n) :
    ∃ M : ℝ, ((before n i).Nonempty → runMax s i = M) ∧
      (run (fun j k => (s j k : EReal)) (fun j k d => (v j k d : EReal)) i).m = runMax s i ∧
      (run (fun j k => (s j k : EReal)) (fun j k d => (v j k d : EReal)) i).l
        = ((∑ j ∈ before n i, ∑ k, Real.exp (s j k - M) : ℝ) : EReal) ∧
      ∀ d, (run (fun j k => (s j k : EReal)) (fun j k d => (v j k d : EReal)) i).acc d
        = ((∑ j ∈ before n i, ∑ k, Real.exp (s j k - M) * v j k d : ℝ) : EReal) := by
  induction i with
  | zero =>
    refine ⟨0, fun h => ?_, ?_, ?_, fun d => ?_⟩
    · rw [before_zero] at h; exact absurd h Finset.not_nonempty_empty
    · show (⊥ : EReal) = runMax s 0
      rw [runMax, before_zero, Finset.fold_empty]
    · show (0 : EReal) = _
      rw [before_zero, Finset.sum_empty, EReal.coe_zero]
    · show (0 : EReal) = _
      rw [before_zero, Finset.sum_empty, EReal.coe_zero]
  | succ i ih =>
    have h : i < n := hi
    obtain ⟨M, hM, hm, hl, hacc⟩ := ih (le_of_lt h)
    have hmax : max (runMax s i) (Finset.univ.fold max ⊥ (fun k => (s ⟨i, h⟩ k : EReal))) = runMax s (i + 1) := by
      rw [runMax, runMax, before_succ h, Finset.fold_insert (not_mem_before h), max_comm]
    obtain ⟨M', hM'⟩ : ∃ r : ℝ, runMax s (i + 1) = r :=
      fold_max_real _ (by rw [before_succ h]; exact Finset.insert_nonempty _ _) _
        (fun j _ => fold_max_real _ Finset.univ_nonempty _ (fun k _ => ⟨_, rfl⟩))
    -- re-basing the sums over the blocks seen so far from the old maximum to the new one
    have hscale : ∀ g : Fin n → K → ℝ,
        Ideal.exp (runMax s i - (M' : EReal)) * ((∑ j ∈ before n i, ∑ k, Real.exp (s j k - M) * g j k : ℝ) : EReal)
          = ((∑ j ∈ before n i, ∑ k, Real.exp (s j k - M') * g j k : ℝ) : EReal) := by
      intro g
      rcases (before n i).eq_empty_or_nonempty with he | hne
      · rw [he, Finset.sum_empty, Finset.sum_empty, EReal.coe_zero, mul_zero]
      · rw [hM hne, ← EReal.coe_sub, Ideal.exp_coe, ← EReal.coe_mul, Finset.mul_sum]
        refine congrArg _ (Finset.sum_congr rfl fun j _ => ?_)
        rw [Finset.mul_sum]
        refine Finset.sum_congr rfl fun k _ => ?_
        rw [← mul_assoc, ← Real.exp_add]
        congr 2
        ring
    refine ⟨M', fun _ => hM', ?_, ?_, fun d => ?_⟩
    · rw [run_succ _ _ h]
      show max _ _ = _
      rw [hm, hmax]
    · rw [run_succ _ _ h]
      show Ideal.exp (_ - max _ _) * _ + ∑ k, Ideal.exp (_ - max _ _) = _
      rw [hm, hmax, hM', hl]
      have h1 := hscale (fun _ _ => 1)
      simp only [mul_one] at h1
      rw [h1]
      simp only [← EReal.coe_sub, Ideal.exp_coe]
      rw [← coe_sum, ← EReal.coe_add, before_succ h, Finset.sum_insert (not_mem_before h), add_comm]
    · rw [run_succ _ _ h]
      show Ideal.exp (_ - max _ _) * _ + ∑ k, Ideal.exp (_ - max _ _) * _ = _
      rw [hm, hmax, hM', hacc d]
      have h1 := hscale (fun j k => v j k d)
      rw [h1]
      simp only [← EReal.coe_sub, Ideal.exp_coe, ← EReal.coe_mul]
      rw [← coe_sum, ← EReal.coe_add, before_succ h, Finset.sum_insert (not_mem_before h), add_comm]

/-- After all n ≥ 1 blocks: with M the (real) maximum of all the scores, the normaliser is ∑ exp (score - M) and
    the accumulator ∑ exp (score - M) * value, over all blocks and positions. -/
theorem run_all [Nonempty K] (hn : 0 < n) :
    ∃ M : ℝ, Finset.univ.fold max ⊥ (fun j => Finset.univ.fold max ⊥ (fun k => (s j k : EReal))) = M ∧
      (run (fun j k => (s j k : EReal)) (fun j k d => (v j k d : EReal)) n).l
        = ((∑ j, ∑ k, Real.exp (s j k - M) : ℝ) : EReal) ∧
      ∀ d, (run (fun j k => (s j k : EReal)) (fun j k d => (v j k d : EReal)) n).acc d
        = ((∑ j, ∑ k, Real.exp (s j k - M) * v j k d : ℝ) : EReal) := by
  obtain ⟨M, hM, _, hl, hacc⟩ := run_eq s v n le_rfl
  haveI : Nonempty (Fin n) := ⟨⟨0, hn⟩⟩
  refine ⟨M, ?_, ?_, fun d => ?_⟩
  · have := hM (by rw [before_self]; exact Finset.univ_nonempty)
    rwa [runMax, before_self] at this
  · rw [hl, before_self]
  · rw [hacc d, before_self]

end Real

/-! ## The theorem -/

/-- THE ONLINE SOFTMAX. Real scores x i and values w i d over a finite index set ι, numbered blockwise by
    e : (block, position) ↦ index, n ≥ 1 blocks, each nonempty. Running the recursion over the n blocks and dividing
    the accumulator by the normaliser gives, at every output column d, the softmax-weighted sum over all of ι at once:
    the sum over i of exp (x i - M) / (∑ i', exp (x i' - M)) times w i d, M the maximum of all the scores folded
    from -∞ — with the ideal instance's exp and division on both sides. -/
theorem online_eq_softmax [Nonempty K] (hn : 0 < n) (e : Fin n × K ≃ ι) (x : ι → ℝ) (w : ι → D → ℝ) (d : D) :
    Ideal.div ((run (fun j k => (x (e (j, k)) : EReal)) (fun j k d => (w (e (j, k)) d : EReal)) n).acc d)
        ((run (fun j k => (x (e (j, k)) : EReal)) (fun j k d => (w (e (j, k)) d : EReal)) n).l)
      = ∑ i, Ideal.div (Ideal.exp ((x i : EReal) - Finset.univ.fold max ⊥ (fun i' => (x i' : EReal))))
              (∑ i', Ideal.exp ((x i' : EReal) - Finset.univ.fold max ⊥ (fun i'' => (x i'' : EReal)))) * (w i d : EReal) := by
  obtain ⟨M, hM, hl, hacc⟩ := run_all (fun j k => x (e (j, k))) (fun j k d => w (e (j, k)) d) hn
  haveI : Nonempty (Fin n) := ⟨⟨0, hn⟩⟩
  have hg : Finset.univ.fold max ⊥ (fun i' => (x i' : EReal)) = M := by
    rw [fold_max_blocks e]; exact hM
  have hZ : 0 < ∑ j, ∑ k, Real.exp (x (e (j, k)) - M) :=
    Finset.sum_pos (fun j _ => Finset.sum_pos (fun k _ => Real.exp_pos _) Finset.univ_nonempty) Finset.univ_nonempty
  have hZ' : ∑ i, Real.exp (x i - M) = ∑ j, ∑ k, Real.exp (x (e (j, k)) - M) := by
    rw [← Equiv.sum_comp e, Fintype.sum_prod_type]
  rw [hl, hacc d, hg]
  simp only [← EReal.coe_sub, Ideal.exp_coe]
  rw [← coe_sum, hZ']
  simp only [Ideal.div_coe hZ.ne', ← EReal.coe_mul]
  rw [← coe_sum]
  refine congrArg _ ?_
  rw [← Equiv.sum_comp e, Fintype.sum_prod_type, Finset.sum_mul]
  refine Finset.sum_congr rfl fun j _ => ?_
  rw [Finset.sum_mul]
  refine Finset.sum_congr rfl fun k _ => ?_
  ring

end OnlineSoftmax

end
-- ==== Proof.Online.lean ====
/-
  The blockwise (streaming) evaluation of the attention of Spec.lean, and that it gives the same numbers.

  For one batch b and one pixel n the 4096 patches are visited in 4 blocks of 1024. Each patch p is scored by the inner
  product over the channels of the pixel's features with the patch scaled by the RECIPROCAL square root of its sum of
  squares; a running maximum, normaliser and accumulator are updated per block (the online soft-max recursion), and at the
  end the accumulator is divided by the normaliser. When every entry is a real number and every patch has a positive sum of
  squares, x * rsqrt s = x / sqrt s, the scores are real, and the recursion equals the soft-max-weighted sum taken over
  all the patches at once (the online soft-max theorem), which is the specification's agg up to the order of a product.
-/
import proofs.«135170_j81827716923690_2_alg».proof.Proof.Spec
import proofs.«135170_j81827716923690_2_alg».proof.Proof.LibOnlineSoftmax

noncomputable section

open scoped BigOperators

namespace Sffa

open Idealize.ShloMosaic Idealize.ShloMosaic.ValueIdx

variable (K : SK.Idx → EReal) (Q : SK.Idx → EReal) (X : SX.Idx → EReal)

/-- Patch p's entry d times the reciprocal square root of the patch's sum of squares. -/
def kkn (b : Fin 4) (p : Fin 4096) (d : Fin 128) : EReal := K (ix3 b p d) * Ideal.rsqrt (ssq K b p)

/-- The score of pixel n (a row of Q) against patch p. -/
def kscore (b : Fin 4) (n p : Fin 4096) : EReal := ∑ d : Fin 128, Q (ix3 b n d) * kkn K b p d

/-- Patch 1024 j + k is position k of block j. -/
def blk : Fin 4 × Fin 1024 ≃ Fin 4096 where
  toFun jk := ⟨1024 * jk.1.val + jk.2.val, by have := jk.1.isLt; have := jk.2.isLt; omega⟩
  invFun p := (⟨p.val / 1024, by have := p.isLt; omega⟩, ⟨p.val % 1024, Nat.mod_lt _ (by norm_num)⟩)
  left_inv := by
    rintro ⟨j, k⟩
    have hj := j.isLt
    have hk := k.isLt
    refine Prod.ext (Fin.ext ?_) (Fin.ext ?_)
    · show (1024 * j.val + k.val) / 1024 = j.val
      omega
    · show (1024 * j.val + k.val) % 1024 = k.val
      omega
  right_inv := by
    intro p
    refine Fin.ext ?_
    show 1024 * (p.val / 1024) + p.val % 1024 = p.val
    omega

/-- The online soft-max state of pixel n after the first i blocks of patches. -/
def krun (b : Fin 4) (n : Fin 4096) (i : ℕ) : OnlineSoftmax.Row (Fin 128) :=
  OnlineSoftmax.run (n := 4) (fun j k => kscore K Q b n (blk (j, k))) (fun j k d => K (ix3 b (blk (j, k)) d)) i

/-- The blockwise result at pixel n and channel c: the accumulator over the normaliser after all 4 blocks. -/
def kout (b : Fin 4) (n : Fin 4096) (c : Fin 128) : EReal :=
  Ideal.div ((krun K Q b n 4).acc c) ((krun K Q b n 4).l)

/-- For real entries, positive sums of squares and Q the transpose of X, the blockwise evaluation is the
    specification's attention. -/
theorem kout_eq_agg (hK : ∀ i, ∃ r : ℝ, K i = (r : EReal)) (hX : ∀ i, ∃ r : ℝ, X i = (r : EReal))
    (hQ : ∀ (b : Fin 4) (n : Fin 4096) (d : Fin 128), Q (ix3 b n d) = X (ix3 b d n))
    (hss : ∀ (b : Fin 4) (p : Fin 4096), 0 < ssq K b p) (b : Fin 4) (c : Fin 128) (n : Fin 4096) :
    kout K Q b n c = agg K X b c n := by
  choose Kr hKr using hK
  choose Xr hXr using hX
  -- the sums of squares are positive reals
  have hssq : ∀ p, ssq K b p = ((∑ c : Fin 128, Kr (ix3 b p c) * Kr (ix3 b p c) : ℝ) : EReal) := by
    intro p
    unfold ssq
    simp only [hKr, ← EReal.coe_mul]
    rw [← OnlineSoftmax.coe_sum]
  have hpos : ∀ p, 0 < ∑ c : Fin 128, Kr (ix3 b p c) * Kr (ix3 b p c) := by
    intro p
    have h := hss b p
    rw [hssq] at h
    exact_mod_cast h
  -- both spellings of the score are one real number
  obtain ⟨s, hscore, hkscore⟩ : ∃ s : Fin 4096 → ℝ, (∀ p, score K X b p n = (s p : EReal)) ∧ (∀ p, kscore K Q b n p = (s p : EReal)) := by
    refine ⟨fun p => ∑ d : Fin 128, Kr (ix3 b p d) * (Real.sqrt (∑ c : Fin 128, Kr (ix3 b p c) * Kr (ix3 b p c)))⁻¹ * Xr (ix3 b d n), fun p => ?_, fun p => ?_⟩
    · unfold score knorm
      rw [hssq, Ideal.sqrt_coe, if_neg (not_lt.2 (hpos p).le)]
      simp only [Ideal.div_coe (Real.sqrt_ne_zero'.2 (hpos p)), hKr, hXr, ← EReal.coe_mul]
      rw [← OnlineSoftmax.coe_sum]
      refine congrArg _ (Finset.sum_congr rfl fun d _ => ?_)
      rw [one_div]
    · unfold kscore kkn
      rw [hssq, Ideal.rsqrt_coe, if_neg (not_lt.2 (hpos p).le), if_neg (hpos p).ne']
      simp only [hQ, hKr, hXr, ← EReal.coe_mul]
      rw [← OnlineSoftmax.coe_sum]
      refine congrArg _ (Finset.sum_congr rfl fun d _ => ?_)
      ring
  -- the recursion over real scores and values is the soft-max-weighted sum
  have e1 : (fun (j : Fin 4) (k : Fin 1024) => kscore K Q b n (blk (j, k))) = fun j k => ((s (blk (j, k)) : ℝ) : EReal) :=
    funext fun j => funext fun k => hkscore _
  have e2 : (fun (j : Fin 4) (k : Fin 1024) (d : Fin 128) => K (ix3 b (blk (j, k)) d))
      = fun j k d => (((fun (p : Fin 4096) (d : Fin 128) => Kr (ix3 b p d)) (blk (j, k)) d : ℝ) : EReal) :=
    funext fun j => funext fun k => funext fun d => hKr _
  unfold kout krun
  rw [e1, e2, OnlineSoftmax.online_eq_softmax (n := 4) (by norm_num) blk s (fun p d => Kr (ix3 b p d)) c]
  unfold agg attn sden sexp smax
  simp only [hscore, hKr]
  exact Finset.sum_congr rfl fun p _ => mul_comm _ _

end Sffa

end
-- ==== Proof.Pieces.lean ====
/-
  What one grid point of the flash-attention body leaves in its three carried scratch buffers (the running row
  maximum, the running normaliser, the accumulator) and, at the last key block, in the output block — each as a
  PURE term over the query block `x0`, the key/value block `x1` and what the previous point left (`xs0`, `xs1`,
  `xs2`), with no memory operation left in it.

  Every load and store of the body addresses a whole buffer at offset zero. So the contents a buffer ends with are
  the payload of the LAST store into it, and a load of a buffer reads either what the point was handed (no store
  into it yet at this point) or the payload of the one store that precedes it. Three control cases:
    A  first key block: the scratch are first set to  -∞, 0, 0  and every later read of them reads these constants;
    B  middle key blocks: one store per scratch, computed from the carried contents;
    C  last key block: as B, then the output block is the just-stored accumulator divided by the just-stored
       normaliser.
  In all three cases the update is the same online-softmax step: new maximum = max(old maximum, row maxima of the
  scores); new normaliser = exp(old max − new max) · old normaliser + row sums of exp(scores − new max); new
  accumulator = exp(old max − new max) · old accumulator + exp(scores − new max) · values.
-/
import proofs.«135170_j81827716923690_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of every access of this kernel: each load and store addresses its whole buffer. -/
theorem hz : (![0, 0, 0] : Fin 3 → Nat) = fun _ => 0 := funext fun a => by fin_cases a <;> rfl

/-! ## Case A (first key block of a query block): the three scratch are initialised, then updated -/

/-- Case A, running maximum: the later of the two stores wins; it holds the maximum of the initial value (read back from the first store) and the row maxima of the scores. -/
theorem sA0 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : cond0_0 i) (hc1 : ¬cond0_1 i)
    (x0 : Vec F S4x2048x128 .f32) (x1 : Vec F S4x1024x128 .f32) :
    sout0_A_0 c i arg2 harg2 arg3 harg3 arg4 harg4 arg5 harg5 arg6 harg6 arg7 harg7 hc0 hc1 x0 x1 = k0_pay2 (k0_pay9 x0 x1 k0_pay4) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S4x2048x1) hz, View.readCov_unit_zero (S := S4x2048x1) arg5.view hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-- Case A, running normaliser: the rescaled initial normaliser plus the row sums of the exponentials, every read of a scratch being the read-back of its initial store. -/
theorem sA1 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : cond0_0 i) (hc1 : ¬cond0_1 i)
    (x0 : Vec F S4x2048x128 .f32) (x1 : Vec F S4x1024x128 .f32) :
    sout0_A_1 c i arg2 harg2 arg3 harg3 arg4 harg4 arg5 harg5 arg6 harg6 arg7 harg7 hc0 hc1 x0 x1 = k0_pay12 x0 x1 k0_pay4 k0_pay4 k0_pay5 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S4x2048x1) hz, View.readCov_unit_zero (S := S4x2048x1) arg5.view hz, View.readCov_unit_zero (S := S4x2048x1) arg6.view hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-- Case A, accumulator: the rescaled initial accumulator plus the product of the exponentials with the value block. -/
theorem sA2 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : cond0_0 i) (hc1 : ¬cond0_1 i)
    (x0 : Vec F S4x2048x128 .f32) (x1 : Vec F S4x1024x128 .f32) :
    sout0_A_2 c i arg2 harg2 arg3 harg3 arg4 harg4 arg5 harg5 arg6 harg6 arg7 harg7 hc0 hc1 x0 x1 = k0_pay1 (k0_pay7 x1) (k0_pay10 x0 x1 k0_pay4 k0_pay4) (k0_pay11 x0 x1 k0_pay4) k0_pay6 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S4x2048x128) hz, View.readCov_unit_zero (S := S4x2048x1) arg5.view hz, View.readCov_unit_zero (S := S4x2048x128) arg7.view hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-! ## Case B (middle key blocks): each scratch is stored once, from what the previous point left -/

/-- Case B, running maximum: the maximum of the carried value and the row maxima of the scores. -/
theorem sB0 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : ¬cond0_0 i) (hc1 : ¬cond0_1 i)
    (x0 : Vec F S4x2048x128 .f32) (x1 : Vec F S4x1024x128 .f32) (xs0 : Vec F S4x2048x1 .f32) (xs1 : Vec F S4x2048x1 .f32) (xs2 : Vec F S4x2048x128 .f32) :
    sout0_B_0 c i arg2 harg2 arg3 harg3 arg4 harg4 arg5 harg5 arg6 harg6 arg7 harg7 hc0 hc1 x0 x1 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S4x2048x1) hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-- Case B, running normaliser: the rescaled carried normaliser plus the row sums of the exponentials. -/
theorem sB1 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : ¬cond0_0 i) (hc1 : ¬cond0_1 i)
    (x0 : Vec F S4x2048x128 .f32) (x1 : Vec F S4x1024x128 .f32) (xs0 : Vec F S4x2048x1 .f32) (xs1 : Vec F S4x2048x1 .f32) (xs2 : Vec F S4x2048x128 .f32) :
    sout0_B_1 c i arg2 harg2 arg3 harg3 arg4 harg4 arg5 harg5 arg6 harg6 arg7 harg7 hc0 hc1 x0 x1 xs0 xs1 xs2 = k0_pay12 x0 x1 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S4x2048x1) hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-- Case B, accumulator: the rescaled carried accumulator plus the product of the exponentials with the value block. -/
theorem sB2 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : ¬cond0_0 i) (hc1 : ¬cond0_1 i)
    (x0 : Vec F S4x2048x128 .f32) (x1 : Vec F S4x1024x128 .f32) (xs0 : Vec F S4x2048x1 .f32) (xs1 : Vec F S4x2048x1 .f32) (xs2 : Vec F S4x2048x128 .f32) :
    sout0_B_2 c i arg2 harg2 arg3 harg3 arg4 harg4 arg5 harg5 arg6 harg6 arg7 harg7 hc0 hc1 x0 x1 xs0 xs1 xs2 = k0_pay1 (k0_pay7 x1) (k0_pay10 x0 x1 xs0 xs0) (k0_pay11 x0 x1 xs0) xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S4x2048x128) hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-! ## Case C (last key block): as case B, and then the output block is the new accumulator over the new normaliser -/

/-- Case C, running maximum: as in case B. -/
theorem sC0 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : ¬cond0_0 i) (hc1 : cond0_1 i)
    (x0 : Vec F S4x2048x128 .f32) (x1 : Vec F S4x1024x128 .f32) (xs0 : Vec F S4x2048x1 .f32) (xs1 : Vec F S4x2048x1 .f32) (xs2 : Vec F S4x2048x128 .f32) :
    sout0_C_0 c i arg2 harg2 arg3 harg3 arg4 harg4 arg5 harg5 arg6 harg6 arg7 harg7 hc0 hc1 x0 x1 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S4x2048x1) hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-- Case C, running normaliser: as in case B. -/
theorem sC1 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : ¬cond0_0 i) (hc1 : cond0_1 i)
    (x0 : Vec F S4x2048x128 .f32) (x1 : Vec F S4x1024x128 .f32) (xs0 : Vec F S4x2048x1 .f32) (xs1 : Vec F S4x2048x1 .f32) (xs2 : Vec F S4x2048x128 .f32) :
    sout0_C_1 c i arg2 harg2 arg3 harg3 arg4 harg4 arg5 harg5 arg6 harg6 arg7 harg7 hc0 hc1 x0 x1 xs0 xs1 xs2 = k0_pay12 x0 x1 xs0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S4x2048x1) hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-- Case C, accumulator: as in case B. -/
theorem sC2 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : ¬cond0_0 i) (hc1 : cond0_1 i)
    (x0 : Vec F S4x2048x128 .f32) (x1 : Vec F S4x1024x128 .f32) (xs0 : Vec F S4x2048x1 .f32) (xs1 : Vec F S4x2048x1 .f32) (xs2 : Vec F S4x2048x128 .f32) :
    sout0_C_2 c i arg2 harg2 arg3 harg3 arg4 harg4 arg5 harg5 arg6 harg6 arg7 harg7 hc0 hc1 x0 x1 xs0 xs1 xs2 = k0_pay1 (k0_pay7 x1) (k0_pay10 x0 x1 xs0 xs0) (k0_pay11 x0 x1 xs0) xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S4x2048x128) hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

/-- Case C, output block: the quotient of the accumulator and the normaliser this same point has just stored (both read back from their one covering store). -/
theorem oC2 (c : Dev nD) (i : grid0.Coords) (arg2 : Memref sig .tc .vmem S4x2048x128 .f32) (harg2 : arg2.IsWhole) (arg3 : Memref sig .tc .vmem S4x1024x128 .f32) (harg3 : arg3.IsWhole) (arg4 : Memref sig .tc .vmem S4x2048x128 .f32) (harg4 : arg4.IsWhole) (arg5 : Memref sig .tc .vmem S4x2048x1 .f32) (harg5 : arg5.IsWhole) (arg6 : Memref sig .tc .vmem S4x2048x1 .f32) (harg6 : arg6.IsWhole) (arg7 : Memref sig .tc .vmem S4x2048x128 .f32) (harg7 : arg7.IsWhole) (hc0 : ¬cond0_0 i) (hc1 : cond0_1 i)
    (x0 : Vec F S4x2048x128 .f32) (x1 : Vec F S4x1024x128 .f32) (xs0 : Vec F S4x2048x1 .f32) (xs1 : Vec F S4x2048x1 .f32) (xs2 : Vec F S4x2048x128 .f32) :
    out0_C_2 c i arg2 harg2 arg3 harg3 arg4 harg4 arg5 harg5 arg6 harg6 arg7 harg7 hc0 hc1 x0 x1 xs0 xs1 xs2 = k0_pay3 (k0_pay1 (k0_pay7 x1) (k0_pay10 x0 x1 xs0 xs0) (k0_pay11 x0 x1 xs0) xs2) (k0_pay12 x0 x1 xs0 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S4x2048x128) hz, View.readCov_unit_zero (S := S4x2048x128) arg7.view hz, View.readCov_unit_zero (S := S4x2048x1) arg6.view hz]
  simp only [View.readAt_eq_ld, harg2.read_unread, harg3.read_unread, harg5.read_unread, harg6.read_unread, harg7.read_unread,
    View.ld_unit_zero (S := S4x2048x128) hz, View.ld_unit_zero (S := S4x1024x128) hz, View.ld_unit_zero (S := S4x2048x1) hz, shapeCast_self]

end Cert.KernelIdeal.Pieces

end
-- ==== Proof.Payload.lean ====
/-
  The payloads of the flash-attention body read at an index, at the ideal instance (a float is an extended real,
  no rounding): each intermediate value of the body as an explicit expression in the entries of the query block
  `x0`, the key/value block `x1` and the carried scratch contents.

  The non-pointwise operations are read once each: a reduction over the last axis is the row's sum (or maximum),
  re-attaching a unit axis and broadcasting along it move no entry, and each of the two batched products is a sum
  over its one contracted axis. Everything else is pointwise.
-/
import proofs.«135170_j81827716923690_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Cert.KernelIdeal Cert.KernelIdeal.Gen Idealize.ShloMosaic Idealize.ShloMosaic.ValueIdx
open scoped BigOperators

namespace Cert.KernelIdeal.Pay

/-! ## The non-pointwise operations read at an index -/

section Generic
variable {n0 n1 n2 : Nat} {φ : FTy} {α : Type}

/-- Inserting the coordinate `k` on the last axis of the rank-2 index `(b, r)` gives `(b, r, k)`. -/
theorem lift_last (h : (⟨3, ![n0, n1, n2]⟩ : Shape).Reduces [2] ⟨2, ![n0, n1]⟩) (b : Fin n0) (r : Fin n1) (k : Fin n2) :
    h.lift (ix2 b r) k = ix3 b r k := by
  funext a
  refine Fin.ext ((Shape.Reduces.lift_val h (ix2 b r) k a).trans ?_)
  match a with
  | ⟨0, _⟩ => simp [Shape.Reduces.liftVal]
  | ⟨1, _⟩ => simp [Shape.Reduces.liftVal]
  | ⟨2, _⟩ => simp [Shape.Reduces.liftVal]

/-- A sum over the last axis, read at `(b, r)`: the sum of the row. -/
theorem sum_last (src : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (b : Fin n0) (r : Fin n1) :
    multiReduction .add [2] ⟨2, ![n0, n1]⟩ src acc h hφ hacc (ix2 b r) = ∑ k : Fin n2, src (ix3 b r k) :=
  (Ideal.multiReduction_add_single src acc h hφ hacc (ix2 b r)).trans
    (Finset.sum_congr rfl fun k _ => congrArg src (lift_last h b r k))

/-- A maximum over the last axis, read at `(b, r)`: the row's maximum, folded from the accumulator's value. -/
theorem max_last (src : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.maximumf.neutral φ hφ)
    (b : Fin n0) (r : Fin n1) :
    multiReduction .maximumf [2] ⟨2, ![n0, n1]⟩ src acc h hφ hacc (ix2 b r)
      = (Finset.univ : Finset (Fin n2)).fold max (Ideal.ofBits φ acc) (fun k => src (ix3 b r k)) :=
  (Ideal.multiReduction_maximumf_single src acc h hφ hacc (ix2 b r)).trans
    (congrArg (fun f => (Finset.univ : Finset (Fin n2)).fold max (Ideal.ofBits φ acc) f)
      (funext fun k => congrArg src (lift_last h b r k)))

/-- Re-attaching a unit last axis moves no element: `(b, r, 0)` reads `(b, r)`. -/
theorem keep_last (v : (⟨2, ![n0, n1]⟩ : Shape).Idx → α) (h : (⟨2, ![n0, n1]⟩ : Shape).ShapeCasts ⟨3, ![n0, n1, 1]⟩)
    (b : Fin n0) (r : Fin n1) :
    shapeCast ⟨3, ![n0, n1, 1]⟩ v h (ix3 b r (0 : Fin 1)) = v (ix2 b r) :=
  shapeCast_apply v h (ix3 b r (0 : Fin 1)) (ix2 b r) (by
    rw [Shape.rowMajor_val_two, Shape.rowMajor_val_three]
    show b.val * n1 + r.val = (b.val * n1 + r.val) * 1 + 0
    omega)

/-- A unit last axis broadcast along it: `(b, r, k)` reads `(b, r, 0)`. -/
theorem bcast_last (v : (⟨3, ![n0, n1, 1]⟩ : Shape).Idx → α) (h : (⟨3, ![n0, n1, 1]⟩ : Shape).Broadcasts ⟨3, ![n0, n1, n2]⟩)
    (b : Fin n0) (r : Fin n1) (k : Fin n2) :
    broadcastTo ⟨3, ![n0, n1, n2]⟩ v h (ix3 b r k) = v (ix3 b r (0 : Fin 1)) :=
  broadcastTo_apply v h (ix3 b r k) (ix3 b r (0 : Fin 1)) (fun a => match a with
    | ⟨0, _⟩ => by
      show b.val = if n0 = 1 then 0 else b.val
      have := b.isLt; split <;> omega
    | ⟨1, _⟩ => by
      show r.val = if n1 = 1 then 0 else r.val
      have := r.isLt; split <;> omega
    | ⟨2, _⟩ => by
      show 0 = if (1 : Nat) = 1 then 0 else k.val
      rw [if_pos rfl])

end Generic

/-! ## The two batched products -/

theorem lhs1_0 (i : S4x2048x1024.Idx) (q : dot_S4x2048x128_S4x1024x128_S4x2048x1024_2_2_1_1_0_0.contr.Idx) : (dot_S4x2048x128_S4x1024x128_S4x2048x1024_2_2_1_1_0_0.lhsIdx i q 0).val = (i 0).val := by
  unfold DotDims.lhsIdx
  rw [dif_pos (show (0 : Fin S4x2048x128.rank) ∈ dot_S4x2048x128_S4x1024x128_S4x2048x1024_2_2_1_1_0_0.lhsBatch by decide)]
  rfl
theorem lhs1_1 (i : S4x2048x1024.Idx) (q : dot_S4x2048x128_S4x1024x128_S4x2048x1024_2_2_1_1_0_0.contr.Idx) : (dot_S4x2048x128_S4x1024x128_S4x2048x1024_2_2_1_1_0_0.lhsIdx i q 1).val = (i 1).val := by
  unfold DotDims.lhsIdx
  rw [dif_neg (show ¬(1 : Fin S4x2048x128.rank) ∈ dot_S4x2048x128_S4x1024x128_S4x2048x1024_2_2_1_1_0_0.lhsBatch by decide), dif_pos (show (1 : Fin S4x2048x128.rank) ∈ dot_S4x2048x128_S4x1024x128_S4x2048x1024_2_2_1_1_0_0.lhsNonContracting by decide)]
  rfl
theorem lhs1_2 (i : S4x2048x1024.Idx) (q : dot_S4x2048x128_S4x1024x128_S4x2048x1024_2_2_1_1_0_0.contr.Idx) : (dot_S4x2048x128_S4x1024x128_S4x2048x1024_2_2_1_1_0_0.lhsIdx i q 2).val = (q ⟨0, by decide⟩).val :=
  dot_S4x2048x128_S4x1024x128_S4x2048x1024_2_2_1_1_0_0.lhsIdx_val_of_single rfl i q
theorem rhs1_0 (i : S4x2048x1024.Idx) (q : dot_S4x2048x128_S4x1024x128_S4x2048x1024_2_2_1_1_0_0.contr.Idx) : (dot_S4x2048x128_S4x1024x128_S4x2048x1024_2_2_1_1_0_0.rhsIdx i q 0).val = (i 0).val := by
  unfold DotDims.rhsIdx
  rw [dif_pos (show (0 : Fin S4x1024x128.rank) ∈ dot_S4x2048x128_S4x1024x128_S4x2048x1024_2_2_1_1_0_0.rhsBatch by decide)]
  rfl
theorem rhs1_1 (i : S4x2048x1024.Idx) (q : dot_S4x2048x128_S4x1024x128_S4x2048x1024_2_2_1_1_0_0.contr.Idx) : (dot_S4x2048x128_S4x1024x128_S4x2048x1024_2_2_1_1_0_0.rhsIdx i q 1).val = (i 2).val := by
  unfold DotDims.rhsIdx
  rw [dif_neg (show ¬(1 : Fin S4x1024x128.rank) ∈ dot_S4x2048x128_S4x1024x128_S4x2048x1024_2_2_1_1_0_0.rhsBatch by decide), dif_pos (show (1 : Fin S4x1024x128.rank) ∈ dot_S4x2048x128_S4x1024x128_S4x2048x1024_2_2_1_1_0_0.rhsNonContracting by decide)]
  rfl
theorem rhs1_2 (i : S4x2048x1024.Idx) (q : dot_S4x2048x128_S4x1024x128_S4x2048x1024_2_2_1_1_0_0.contr.Idx) : (dot_S4x2048x128_S4x1024x128_S4x2048x1024_2_2_1_1_0_0.rhsIdx i q 2).val = (q ⟨0, by decide⟩).val :=
  dot_S4x2048x128_S4x1024x128_S4x2048x1024_2_2_1_1_0_0.rhsIdx_val_of_single rfl i q

/-- The score product, batched over axis 0 and contracting the last axis of both operands:
    `(b, r, j)` reads `∑ d, l (b, r, d) · rr (b, j, d)`. -/
theorem matmul1_apply (l : FVec Ideal S4x2048x128 .f32) (rr : FVec Ideal S4x1024x128 .f32) (b : Fin 4) (r : Fin 2048) (j : Fin 1024) :
    matmul dot_S4x2048x128_S4x1024x128_S4x2048x1024_2_2_1_1_0_0 none l rr (constant S4x2048x1024 .f32 0x00000000#32) (ix3 b r j) = ∑ d : Fin 128, l (ix3 b r d) * rr (ix3 b j d) := by
  refine (Ideal.matmul_constant_zero_apply dot_S4x2048x128_S4x1024x128_S4x2048x1024_2_2_1_1_0_0 none l rr (ix3 b r j)).trans ?_
  rw [← Equiv.sum_comp (contrEquiv1 dot_S4x2048x128_S4x1024x128_S4x2048x1024_2_2_1_1_0_0 128 rfl rfl).symm]
  refine Finset.sum_congr rfl fun k _ => ?_
  have hk := contrEquiv1_symm_val dot_S4x2048x128_S4x1024x128_S4x2048x1024_2_2_1_1_0_0 128 rfl rfl k
  have el : dot_S4x2048x128_S4x1024x128_S4x2048x1024_2_2_1_1_0_0.lhsIdx (ix3 b r j) ((contrEquiv1 dot_S4x2048x128_S4x1024x128_S4x2048x1024_2_2_1_1_0_0 128 rfl rfl).symm k) = ix3 b r k := funext fun a => Fin.ext (by
    match a with
    | ⟨0, _⟩ => exact lhs1_0 _ _
    | ⟨1, _⟩ => exact lhs1_1 _ _
    | ⟨2, _⟩ => exact (lhs1_2 _ _).trans hk)
  have er : dot_S4x2048x128_S4x1024x128_S4x2048x1024_2_2_1_1_0_0.rhsIdx (ix3 b r j) ((contrEquiv1 dot_S4x2048x128_S4x1024x128_S4x2048x1024_2_2_1_1_0_0 128 rfl rfl).symm k) = ix3 b j k := funext fun a => Fin.ext (by
    match a with
    | ⟨0, _⟩ => exact rhs1_0 _ _
    | ⟨1, _⟩ => exact rhs1_1 _ _
    | ⟨2, _⟩ => exact (rhs1_2 _ _).trans hk)
  rw [el, er]

theorem lhs2_0 (i : S4x2048x128.Idx) (q : dot_S4x2048x1024_S4x1024x128_S4x2048x128_2_1_1_2_0_0.contr.Idx) : (dot_S4x2048x1024_S4x1024x128_S4x2048x128_2_1_1_2_0_0.lhsIdx i q 0).val = (i 0).val := by
  unfold DotDims.lhsIdx
  rw [dif_pos (show (0 : Fin S4x2048x1024.rank) ∈ dot_S4x2048x1024_S4x1024x128_S4x2048x128_2_1_1_2_0_0.lhsBatch by decide)]
  rfl
theorem lhs2_1 (i : S4x2048x128.Idx) (q : dot_S4x2048x1024_S4x1024x128_S4x2048x128_2_1_1_2_0_0.contr.Idx) : (dot_S4x2048x1024_S4x1024x128_S4x2048x128_2_1_1_2_0_0.lhsIdx i q 1).val = (i 1).val := by
  unfold DotDims.lhsIdx
  rw [dif_neg (show ¬(1 : Fin S4x2048x1024.rank) ∈ dot_S4x2048x1024_S4x1024x128_S4x2048x128_2_1_1_2_0_0.lhsBatch by decide), dif_pos (show (1 : Fin S4x2048x1024.rank) ∈ dot_S4x2048x1024_S4x1024x128_S4x2048x128_2_1_1_2_0_0.lhsNonContracting by decide)]
  rfl
theorem lhs2_2 (i : S4x2048x128.Idx) (q : dot_S4x2048x1024_S4x1024x128_S4x2048x128_2_1_1_2_0_0.contr.Idx) : (dot_S4x2048x1024_S4x1024x128_S4x2048x128_2_1_1_2_0_0.lhsIdx i q 2).val = (q ⟨0, by decide⟩).val :=
  dot_S4x2048x1024_S4x1024x128_S4x2048x128_2_1_1_2_0_0.lhsIdx_val_of_single rfl i q
theorem rhs2_0 (i : S4x2048x128.Idx) (q : dot_S4x2048x1024_S4x1024x128_S4x2048x128_2_1_1_2_0_0.contr.Idx) : (dot_S4x2048x1024_S4x1024x128_S4x2048x128_2_1_1_2_0_0.rhsIdx i q 0).val = (i 0).val := by
  unfold DotDims.rhsIdx
  rw [dif_pos (show (0 : Fin S4x1024x128.rank) ∈ dot_S4x2048x1024_S4x1024x128_S4x2048x128_2_1_1_2_0_0.rhsBatch by decide)]
  rfl
theorem rhs2_1 (i : S4x2048x128.Idx) (q : dot_S4x2048x1024_S4x1024x128_S4x2048x128_2_1_1_2_0_0.contr.Idx) : (dot_S4x2048x1024_S4x1024x128_S4x2048x128_2_1_1_2_0_0.rhsIdx i q 1).val = (q ⟨0, by decide⟩).val :=
  dot_S4x2048x1024_S4x1024x128_S4x2048x128_2_1_1_2_0_0.rhsIdx_val_of_single rfl i q
theorem rhs2_2 (i : S4x2048x128.Idx) (q : dot_S4x2048x1024_S4x1024x128_S4x2048x128_2_1_1_2_0_0.contr.Idx) : (dot_S4x2048x1024_S4x1024x128_S4x2048x128_2_1_1_2_0_0.rhsIdx i q 2).val = (i 2).val := by
  unfold DotDims.rhsIdx
  rw [dif_neg (show ¬(2 : Fin S4x1024x128.rank) ∈ dot_S4x2048x1024_S4x1024x128_S4x2048x128_2_1_1_2_0_0.rhsBatch by decide), dif_pos (show (2 : Fin S4x1024x128.rank) ∈ dot_S4x2048x1024_S4x1024x128_S4x2048x128_2_1_1_2_0_0.rhsNonContracting by decide)]
  rfl

/-- The value product, batched over axis 0 and contracting the left operand's last axis with the right operand's
    middle axis: `(b, r, c)` reads `∑ j, l (b, r, j) · rr (b, j, c)`. -/
theorem matmul2_apply (l : FVec Ideal S4x2048x1024 .f32) (rr : FVec Ideal S4x1024x128 .f32) (b : Fin 4) (r : Fin 2048) (c : Fin 128) :
    matmul dot_S4x2048x1024_S4x1024x128_S4x2048x128_2_1_1_2_0_0 none l rr (constant S4x2048x128 .f32 0x00000000#32) (ix3 b r c) = ∑ j : Fin 1024, l (ix3 b r j) * rr (ix3 b j c) := by
  refine (Ideal.matmul_constant_zero_apply dot_S4x2048x1024_S4x1024x128_S4x2048x128_2_1_1_2_0_0 none l rr (ix3 b r c)).trans ?_
  rw [← Equiv.sum_comp (contrEquiv1 dot_S4x2048x1024_S4x1024x128_S4x2048x128_2_1_1_2_0_0 1024 rfl rfl).symm]
  refine Finset.sum_congr rfl fun k _ => ?_
  have hk := contrEquiv1_symm_val dot_S4x2048x1024_S4x1024x128_S4x2048x128_2_1_1_2_0_0 1024 rfl rfl k
  have el : dot_S4x2048x1024_S4x1024x128_S4x2048x128_2_1_1_2_0_0.lhsIdx (ix3 b r c) ((contrEquiv1 dot_S4x2048x1024_S4x1024x128_S4x2048x128_2_1_1_2_0_0 1024 rfl rfl).symm k) = ix3 b r k := funext fun a => Fin.ext (by
    match a with
    | ⟨0, _⟩ => exact lhs2_0 _ _
    | ⟨1, _⟩ => exact lhs2_1 _ _
    | ⟨2, _⟩ => exact (lhs2_2 _ _).trans hk)
  have er : dot_S4x2048x1024_S4x1024x128_S4x2048x128_2_1_1_2_0_0.rhsIdx (ix3 b r c) ((contrEquiv1 dot_S4x2048x1024_S4x1024x128_S4x2048x128_2_1_1_2_0_0 1024 rfl rfl).symm k) = ix3 b k c := funext fun a => Fin.ext (by
    match a with
    | ⟨0, _⟩ => exact rhs2_0 _ _
    | ⟨1, _⟩ => exact (rhs2_1 _ _).trans hk
    | ⟨2, _⟩ => exact rhs2_2 _ _)
  rw [el, er]

/-! ## The payloads read at an index -/

/-- The squared norm of key row `(b, j)`. -/
def bss (x1 : Vec Ideal S4x1024x128 .f32) (b : Fin 4) (j : Fin 1024) : EReal :=
  ∑ d : Fin 128, x1 (ix3 b j d) * x1 (ix3 b j d)

/-- The score of query row `(b, r)` against key row `(b, j)`, the key row scaled to unit norm. -/
def bsc (x0 : Vec Ideal S4x2048x128 .f32) (x1 : Vec Ideal S4x1024x128 .f32) (b : Fin 4) (r : Fin 2048) (j : Fin 1024) : EReal :=
  ∑ d : Fin 128, x0 (ix3 b r d) * (x1 (ix3 b j d) * Ideal.rsqrt (bss x1 b j))

variable (x0 : Vec Ideal S4x2048x128 .f32) (x1 : Vec Ideal S4x1024x128 .f32)
variable (b : Fin 4) (r : Fin 2048) (j : Fin 1024) (c d : Fin 128)

/-- The cast of the key block to its own shape is the key block. -/
theorem pay7_eq : k0_pay7 x1 = x1 := by
  unfold k0_pay7
  exact shapeCast_self _ _

/-- The cast of the new maximum to its own shape is the new maximum. -/
theorem pay2_eq (v : FVec Ideal S4x2048x1 .f32) : k0_pay2 v = v := by
  unfold k0_pay2
  exact shapeCast_self _ _

/-- The initial running maximum is `-∞` everywhere. -/
theorem pay4_apply : (k0_pay4 (F := Ideal)) (ix3 b r (0 : Fin 1)) = ⊥ := by
  unfold k0_pay4
  rw [shapeCast_self]
  show Ideal.ofBits .f32 0xFF800000#32 = ⊥
  simp [Ideal.ofBits, Ideal.ieee]

/-- The initial running normaliser is `0` everywhere. -/
theorem pay5_apply : (k0_pay5 (F := Ideal)) (ix3 b r (0 : Fin 1)) = 0 := by
  unfold k0_pay5
  rw [shapeCast_self]
  exact Ideal.ofBits_zero_f32

/-- The initial accumulator is `0` everywhere. -/
theorem pay6_apply : (k0_pay6 (F := Ideal)) (ix3 b r c) = 0 := by
  unfold k0_pay6
  rw [shapeCast_self]
  exact Ideal.ofBits_zero_f32

/-- The scores: query rows against the key rows scaled to unit norm. -/
theorem pay8_apply : k0_pay8 x0 x1 (ix3 b r j) = bsc x0 x1 b r j := by
  unfold k0_pay8
  refine (matmul1_apply _ _ b r j).trans ?_
  unfold bsc
  refine Finset.sum_congr rfl fun k _ => ?_
  refine congrArg₂ (· * ·) (congrFun (shapeCast_self x0 _) _) ?_
  refine (mulf_apply _ _ _).trans ?_
  refine congrArg₂ (· * ·) (congrFun (pay7_eq x1) _) ?_
  refine (bcast_last _ _ b j k).trans ?_
  refine congrArg Ideal.rsqrt ?_
  refine (keep_last _ _ b j).trans ?_
  refine (sum_last _ _ _ _ _ b j).trans ?_
  unfold bss
  refine Finset.sum_congr rfl fun e _ => ?_
  refine (mulf_apply _ _ _).trans ?_
  exact congrArg₂ (· * ·) (congrFun (pay7_eq x1) _) (congrFun (pay7_eq x1) _)

/-- The pattern of `-∞` denotes `⊥`. -/
theorem negInf : Ideal.ofBits .f32 0xFF800000#32 = ⊥ := by simp [Ideal.ofBits, Ideal.ieee]

/-- The new running maximum: the old one against the row's largest score. -/
theorem pay9_apply (ms : Vec Ideal S4x2048x1 .f32) :
    k0_pay9 x0 x1 ms (ix3 b r (0 : Fin 1))
      = max (ms (ix3 b r 0)) (Finset.univ.fold max ⊥ (fun j : Fin 1024 => bsc x0 x1 b r j)) := by
  unfold k0_pay9
  refine (maximumf_apply _ _ _).trans ?_
  refine congrArg (max (ms (ix3 b r 0))) ?_
  refine (keep_last _ _ b r).trans ?_
  refine (max_last _ _ _ _ _ b r).trans ?_
  exact congrArg₂ (fun a f => (Finset.univ : Finset (Fin 1024)).fold max a f) negInf (funext fun k => pay8_apply x0 x1 b r k)

/-- The rescaling factor of the carried sums: `exp (old − new)` of the two maxima. -/
theorem pay10_apply (ms ms' : Vec Ideal S4x2048x1 .f32) :
    k0_pay10 x0 x1 ms ms' (ix3 b r (0 : Fin 1)) = Ideal.exp (ms' (ix3 b r 0) - k0_pay9 x0 x1 ms (ix3 b r 0)) := by
  unfold k0_pay10
  rfl

/-- The exponentials of the scores, shifted by the new maximum of their row. -/
theorem pay11_apply (ms : Vec Ideal S4x2048x1 .f32) :
    k0_pay11 x0 x1 ms (ix3 b r j) = Ideal.exp (bsc x0 x1 b r j - k0_pay9 x0 x1 ms (ix3 b r 0)) := by
  unfold k0_pay11
  show Ideal.exp (k0_pay8 x0 x1 (ix3 b r j) - broadcastTo S4x2048x1024 (k0_pay9 x0 x1 ms) _ (ix3 b r j)) = _
  exact congrArg₂ (fun u v => Ideal.exp (u - v)) (pay8_apply x0 x1 b r j) (bcast_last _ _ b r j)

/-- The new running normaliser: the rescaled old one plus the row's sum of exponentials. -/
theorem pay12_apply (ms ms' ls : Vec Ideal S4x2048x1 .f32) :
    k0_pay12 x0 x1 ms ms' ls (ix3 b r (0 : Fin 1))
      = k0_pay10 x0 x1 ms ms' (ix3 b r 0) * ls (ix3 b r 0) + ∑ j : Fin 1024, k0_pay11 x0 x1 ms (ix3 b r j) := by
  unfold k0_pay12
  refine (congrFun (shapeCast_self _ _) _).trans ?_
  refine (addf_apply _ _ _).trans ?_
  refine congrArg₂ (· + ·) (mulf_apply _ _ _) ?_
  refine (keep_last _ _ b r).trans ?_
  exact sum_last _ _ _ _ _ b r

/-- The new accumulator: the rescaled old one plus the product of the weights with the value block. -/
theorem pay1_apply (v20 : FVec Ideal S4x2048x1 .f32) (v23 : FVec Ideal S4x2048x1024 .f32) (accs : Vec Ideal S4x2048x128 .f32) :
    k0_pay1 (k0_pay7 x1) v20 v23 accs (ix3 b r c)
      = v20 (ix3 b r 0) * accs (ix3 b r c) + ∑ j : Fin 1024, v23 (ix3 b r j) * x1 (ix3 b j c) := by
  unfold k0_pay1
  refine (congrFun (shapeCast_self _ _) _).trans ?_
  refine (addf_apply _ _ _).trans ?_
  refine congrArg₂ (· + ·) ?_ ?_
  · refine (mulf_apply _ _ _).trans ?_
    exact congrArg (· * accs (ix3 b r c)) (bcast_last _ _ b r c)
  · refine (matmul2_apply _ _ b r c).trans ?_
    exact Finset.sum_congr rfl fun k _ => congrArg (v23 (ix3 b r k) * ·) (congrFun (pay7_eq x1) _)

/-- The output block: the accumulator divided, row by row, by the normaliser. -/
theorem pay3_apply (acc : Vec Ideal S4x2048x128 .f32) (l : Vec Ideal S4x2048x1 .f32) :
    k0_pay3 acc l (ix3 b r c) = Ideal.div (acc (ix3 b r c)) (l (ix3 b r 0)) := by
  unfold k0_pay3
  refine (divf_apply _ _ _).trans ?_
  exact congrArg (Ideal.div (acc (ix3 b r c))) (bcast_last _ _ b r c)

end Cert.KernelIdeal.Pay

end
-- ==== Proof.KernelArray.lean ====
/-
  The arrays around the kernel's region.

  Before the region the host forms the patch (key) array K = (x0 * mask) re-laid as [batch, pixel, channel] plus 1e-7 and
  the query array Q = x0 re-laid the same way. The grid's point t = 4 qi + ki reads rows 2048 qi … 2048 qi + 2047 of Q and
  rows 1024 ki … 1024 ki + 1023 of K; the output array is written back in two blocks of 2048 rows, at the points with
  ki = 3, and these two blocks tile it: if each written block is the matching block of one array O, the output array ends
  as O. After the region the host transposes the output back, unflattens it, multiplies by 1 - mask and adds x0 * mask;
  the program's result is that chain of operations applied to O, and the arguments are unchanged.
-/
import proofs.«135170_j81827716923690_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Plumb

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-! ## The arrays the region finds, as terms of the arguments -/

/-- The key array: the first argument times the broadcast mask, its two trailing axes flattened, transposed to
    rows of 128, plus the constant 1e-7. -/
def Kterm (a0 : FVec F S4x128x64x64 .f32) (a1 : FVec F S4x1x64x64 .f32) : FVec F S4x4096x128 .f32 :=
  addf (transpose S4x4096x128 [0, 2, 1] (shapeCast S4x128x4096 (mulf a0 (broadcastInDim S4x128x64x64 ![0, 1, 2, 3] bcast_S4x1x64x64_S4x128x64x64_0_1_2_3 a1)) shapeCasts_S4x128x64x64_S4x128x4096) transposes_S4x128x4096_S4x4096x128_0_2_1) (broadcastInDim S4x4096x128 ![] bcast_S_S4x4096x128 (constant (F := F) S_ .f32 0x33D6BF95#32))

/-- The query array: the first argument, its two trailing axes flattened, transposed to rows of 128. -/
def Qterm (a0 : FVec F S4x128x64x64 .f32) : FVec F S4x4096x128 .f32 :=
  transpose S4x4096x128 [0, 2, 1] (shapeCast S4x128x4096 a0 shapeCasts_S4x128x64x64_S4x128x4096) transposes_S4x128x4096_S4x4096x128_0_2_1

theorem V5_eq (c : Dev nD) : V m c main_v5 = Kterm (m ((c : Thread nD τ).loc main_arg0)) (m ((c : Thread nD τ).loc main_arg1)) := by
  show StableHlo.after hostOps0 (fun b => m (c, b)) (Proc.devRef .tc main_v5) = _
  after_results
  rfl

theorem V7_eq (c : Dev nD) : V m c main_v7 = Qterm (m ((c : Thread nD τ).loc main_arg0)) := by
  show StableHlo.after hostOps0 (fun b => m (c, b)) (Proc.devRef .tc main_v7) = _
  after_results
  rfl

/-! ## The input blocks read at coordinates -/

/-- The grid has eight points. -/
theorem tlt (t : Fin cfg0.N) : t.val < 8 := lt_of_lt_of_eq t.isLt (show cfg0.N = 8 from N_0)

/-- Window 0 (the query rows) sits at row block `t / 4`, at block 0 along the other two axes. -/
theorem idx0 : ∀ t : Fin cfg0.N, win0_0.index t 0 = 0 ∧ win0_0.index t 1 = t.val / 4 ∧ win0_0.index t 2 = 0 :=
  (by decide +kernel : ∀ t : Fin grid0.N, win0_0.index t 0 = 0 ∧ win0_0.index t 1 = t.val / 4 ∧ win0_0.index t 2 = 0)

/-- Window 1 (the key rows) sits at row block `t % 4`, at block 0 along the other two axes. -/
theorem idx1 : ∀ t : Fin cfg0.N, win0_1.index t 0 = 0 ∧ win0_1.index t 1 = t.val % 4 ∧ win0_1.index t 2 = 0 :=
  (by decide +kernel : ∀ t : Fin grid0.N, win0_1.index t 0 = 0 ∧ win0_1.index t 1 = t.val % 4 ∧ win0_1.index t 2 = 0)

/-- Row `r` of the query block at point `t` is row `2048 (t / 4) + r` of the query array. -/
theorem iblk0_apply (c : Dev nD) (t : Fin cfg0.N) (b : Fin 4) (r : Fin 2048) (d : Fin 128) :
    (iblk m c 0 t : Vec F S4x2048x128 .f32) (ix3 b r d)
      = V m c main_v7 (ix3 b ⟨2048 * (t.val / 4) + r.val, by have := tlt t; omega⟩ d) := by
  unfold iblk
  rw [View.read_apply]
  show V m c main_v7 _ = V m c main_v7 _
  congr 1
  funext a
  apply Fin.ext
  match a with
  | ⟨0, _⟩ => show win0_0.index t 0 * 4 + 1 * b.val = b.val; rw [(idx0 t).1]; omega
  | ⟨1, _⟩ => show win0_0.index t 1 * 2048 + 1 * r.val = 2048 * (t.val / 4) + r.val; rw [(idx0 t).2.1]; omega
  | ⟨2, _⟩ => show win0_0.index t 2 * 128 + 1 * d.val = d.val; rw [(idx0 t).2.2]; omega

/-- Row `j` of the key block at point `t` is row `1024 (t % 4) + j` of the key array. -/
theorem iblk1_apply (c : Dev nD) (t : Fin cfg0.N) (b : Fin 4) (j : Fin 1024) (d : Fin 128) :
    (iblk m c 1 t : Vec F S4x1024x128 .f32) (ix3 b j d)
      = V m c main_v5 (ix3 b ⟨1024 * (t.val % 4) + j.val, by omega⟩ d) := by
  unfold iblk
  rw [View.read_apply]
  show V m c main_v5 _ = V m c main_v5 _
  congr 1
  funext a
  apply Fin.ext
  match a with
  | ⟨0, _⟩ => show win0_1.index t 0 * 4 + 1 * b.val = b.val; rw [(idx1 t).1]; omega
  | ⟨1, _⟩ => show win0_1.index t 1 * 1024 + 1 * j.val = 1024 * (t.val % 4) + j.val; rw [(idx1 t).2.1]; omega
  | ⟨2, _⟩ => show win0_1.index t 2 * 128 + 1 * d.val = d.val; rw [(idx1 t).2.2]; omega

/-! ## From the output's blocks to the output array -/

/-- Window 2 (the output rows) sits at row block `t / 4`, at block 0 along the other two axes. -/
theorem idx2 : ∀ t : Fin cfg0.N, win0_2.index t 0 = 0 ∧ win0_2.index t 1 = t.val / 4 ∧ win0_2.index t 2 = 0 :=
  (by decide +kernel : ∀ t : Fin grid0.N, win0_2.index t 0 = 0 ∧ win0_2.index t 1 = t.val / 4 ∧ win0_2.index t 2 = 0)

/-- Where element `(b, r, d)` of the output block at point `t` sits in the output array: row `2048 (t / 4) + r`. -/
theorem blk2_emb (t : Fin cfg0.N) (b : Fin 4) (r : Fin 2048) (d : Fin 128) :
    ((cfg0.win 2).blk t).view.emb (ix3 b r d)
      = (ix3 b ⟨2048 * (t.val / 4) + r.val, by have := tlt t; omega⟩ d : S4x4096x128.Idx) := by
  funext a
  apply Fin.ext
  match a with
  | ⟨0, _⟩ => show win0_2.index t 0 * 4 + 1 * b.val = b.val; rw [(idx2 t).1]; omega
  | ⟨1, _⟩ => show win0_2.index t 1 * 2048 + 1 * r.val = 2048 * (t.val / 4) + r.val; rw [(idx2 t).2.1]; omega
  | ⟨2, _⟩ => show win0_2.index t 2 * 128 + 1 * d.val = d.val; rw [(idx2 t).2.2]; omega

/-- An index of the output array is in point `t`'s block iff each coordinate is in the block's range on its axis. -/
theorem mem_blk2 (t : Fin cfg0.N) (i : S4x4096x128.Idx) :
    i ∈ ((cfg0.win 2).blk t).view.set ↔ ∀ a : Fin 3, win0_2.index t a * S4x2048x128.size a ≤ (i a).val ∧ (i a).val < win0_2.index t a * S4x2048x128.size a + S4x2048x128.size a := by
  show i ∈ ((View.whole main_v8).slice (win0_2.rect t)).set ↔ _
  rw [View.set_slice_whole, Rect.mem_set_unit]
  exact Iff.rfl

section Final

variable (c : Dev nD) (O : Vec F S4x4096x128 .f32)
  (hO : ∀ t : Fin cfg0.N, t.val % 4 = 3 → ∀ (b : Fin 4) (r : Fin 2048) (d : Fin 128),
    ((outsAt0 m c t.val t.isLt).1 : Vec F S4x2048x128 .f32) (ix3 b r d)
      = O (ix3 b ⟨2048 * (t.val / 4) + r.val, by have := tlt t; omega⟩ d))

include hO in
/-- What a point that writes the output back writes is its block of `O`. -/
theorem flushed_eq (t : Fin cfg0.N) (hf : (cfg0.win 2).flush t = true) :
    (dats m 0 c).flushed 2 t = ((cfg0.win 2).blk t).view.read (Elt F) O := by
  have h3 : t.val % 4 = 3 := (flush0_2 t).mp hf
  show (cfg0.win 2).cut (grid0.coords t) ((dats m 0 c).after 2 t) = _
  rw [after0_2]
  funext y
  rw [View.read_apply]
  obtain ⟨b, r, d, rfl⟩ : ∃ (b : Fin 4) (r : Fin 2048) (d : Fin 128), y = ix3 b r d :=
    ⟨y 0, y 1, y 2, eq_ix3 (n0 := 4) (n1 := 2048) (n2 := 128) y⟩
  rw [blk2_emb]
  exact hO t h3 b r d

include hO in
/-- The two write-backs (points 3 and 7) tile the array by row halves: it ends holding `O`. -/
theorem final_of : (dats m 0 c).arrAt 2 cfg0.N = O :=
  (dats m 0 c).arrAt_eq_of_cover 2 O (flushed_eq m c O hO) fun i => by
    have h0 : (i 0).val < 4 := (i 0).isLt
    have h1 : (i 1).val < 4096 := (i 1).isLt
    have h2 : (i 2).val < 128 := (i 2).isLt
    obtain ⟨t, ht⟩ : ∃ t : Fin cfg0.N, t.val = 4 * ((i 1).val / 2048) + 3 :=
      ⟨⟨4 * ((i 1).val / 2048) + 3, by rw [show cfg0.N = 8 from N_0]; omega⟩, rfl⟩
    refine ⟨t, (flush0_2 t).mpr (by omega), ?_⟩
    rw [mem_blk2]
    obtain ⟨e0, e1, e2⟩ := idx2 t
    intro a
    match a with
    | ⟨0, _⟩ => show win0_2.index t 0 * 4 ≤ (i 0).val ∧ (i 0).val < win0_2.index t 0 * 4 + 4; omega
    | ⟨1, _⟩ => show win0_2.index t 1 * 2048 ≤ (i 1).val ∧ (i 1).val < win0_2.index t 1 * 2048 + 2048; omega
    | ⟨2, _⟩ => show win0_2.index t 2 * 128 ≤ (i 2).val ∧ (i 2).val < win0_2.index t 2 * 128 + 128; omega

end Final

/-! ## The run with the host operations after the region -/

/-- The host operations after the region, composed: the output array transposed back and unflattened, times the
    broadcast complement of the mask, added to the first argument times the broadcast mask. -/
def tail (a0 : FVec F S4x128x64x64 .f32) (a1 : FVec F S4x1x64x64 .f32) (O : FVec F S4x4096x128 .f32) : FVec F S4x128x64x64 .f32 :=
  addf (mulf a0 (broadcastInDim S4x128x64x64 ![0, 1, 2, 3] bcast_S4x1x64x64_S4x128x64x64_0_1_2_3 a1))
    (mulf (shapeCast S4x128x64x64 (transpose S4x128x4096 [0, 2, 1] O transposes_S4x4096x128_S4x128x4096_0_2_1) shapeCasts_S4x128x4096_S4x128x64x64)
      (broadcastInDim S4x128x64x64 ![0, 1, 2, 3] bcast_S4x1x64x64_S4x128x64x64_0_1_2_3 (subf (broadcastInDim S4x1x64x64 ![] bcast_S_S4x1x64x64 (constant (F := F) S_ .f32 0x3F800000#32)) a1)))

/-- The masked first argument, as the region finds it. -/
theorem V1_eq (c : Dev nD) : V m c main_v1 = mulf (m ((c : Thread nD τ).loc main_arg0)) (broadcastInDim S4x128x64x64 ![0, 1, 2, 3] bcast_S4x1x64x64_S4x128x64x64_0_1_2_3 (m ((c : Thread nD τ).loc main_arg1))) := by
  show StableHlo.after hostOps0 (fun b => m (c, b)) (Proc.devRef .tc main_v1) = _
  after_results

/-- The program's result: the host operations after the region applied to the masked first argument (untouched by
    the region), the mask, and the region's output array. -/
theorem tail_eq (c : Dev nD) (O : FVec F S4x4096x128 .f32) (hO : (dats m 0 c).arrAt 2 cfg0.N = O) :
    Pipeline.afterTail₀ cfgs (dats m) 0 (V0 m) [hostOps1] c main_v15
      = tail (m ((c : Thread nD τ).loc main_arg0)) (m ((c : Thread nD τ).loc main_arg1)) O := by
  unfold Pipeline.afterTail₀
  show StableHlo.after hostOps1 _ (Proc.devRef .tc main_v15) = _
  after_results
  have e1 : Pipeline.withArrays (cfgs 0).spec c (V0 m c) (fun w => (dats m 0 c).arrAt w (cfgs 0).N) (Proc.devRef .tc main_v1)
      = mulf (m ((c : Thread nD τ).loc main_arg0)) (broadcastInDim S4x128x64x64 ![0, 1, 2, 3] bcast_S4x1x64x64_S4x128x64x64_0_1_2_3 (m ((c : Thread nD τ).loc main_arg1))) :=
    (Pipeline.withArrays_of_ne spec0 c (V0 m c) _ main_v1 (by exact (by decide : ∀ w, Pipeline.arrRef spec0 w ≠ main_v1))).trans (V1_eq m c)
  have eA : Pipeline.withArrays (cfgs 0).spec c (V0 m c) (fun w => (dats m 0 c).arrAt w (cfgs 0).N) (Proc.devRef .tc main_arg1)
      = m ((c : Thread nD τ).loc main_arg1) :=
    (Pipeline.withArrays_of_ne spec0 c (V0 m c) _ main_arg1 (by exact (by decide : ∀ w, Pipeline.arrRef spec0 w ≠ main_arg1))).trans (V_main_arg1 m c)
  have e8 : Pipeline.withArrays (cfgs 0).spec c (V0 m c) (fun w => (dats m 0 c).arrAt w (cfgs 0).N) (Proc.devRef .tc main_v8) = O :=
    (Pipeline.withArrays_arr spec0 launch0.win.arr_inj c _ _ 2).trans hO
  rw [e1, eA, e8]
  rfl

/-- The run, read: the result at the host tail of the arguments and the region's output array, the arguments unchanged. -/
theorem run_of (O : (c : Dev nD) → FVec F S4x4096x128 .f32) (hO : ∀ c, (dats m 0 c).arrAt 2 cfg0.N = O c) :
    θ_run defs (onTc (τ := τ) (main (F := F))) ⟨m, fun _ => 0, ρ⟩ (fun r => ∀ c : Dev nD,
      r.2.mem ((c.tc : Thread nD τ).loc main_v15) = tail (m ((c.tc : Thread nD τ).loc main_arg0)) (m ((c.tc : Thread nD τ).loc main_arg1)) (O c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v15 (Pipeline.mem_restRefs_of main_v15 (by decide) (by decide))).trans (tail_eq m c (O c) (hO c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Plumb

end
-- ==== Proof.Invariant.lean ====
/-
  What the three carried scratch buffers and the output's staging buffer hold after each grid point.

  The grid has 8 points t = 4 * qi + ki: query row block qi (rows 2048 qi … 2048 qi + 2047 of the pixel axis) against
  key block ki (patches 1024 ki … 1024 ki + 1023). For every batch b and row r of the block, the entries (b, r, 0) of the
  running maximum and of the running normaliser and the entries (b, r, ·) of the accumulator form one online soft-max
  state; the body's stores are exactly one step of the online soft-max recursion on the block's scores and values (the
  first point of a row block starting from -∞, 0, 0), so after point t the state is the recursion run over key blocks
  0 … ki of pixel n = 2048 qi + r, and at ki = 3 the output block holds accumulator / normaliser, the blockwise result.
-/
import proofs.«135170_j81827716923690_2_alg».proof.Proof.Gen.KernelIdeal.Frame
import proofs.«135170_j81827716923690_2_alg».proof.Proof.Pieces
import proofs.«135170_j81827716923690_2_alg».proof.Proof.Payload
import proofs.«135170_j81827716923690_2_alg».proof.Proof.KernelArray
import proofs.«135170_j81827716923690_2_alg».proof.Proof.Online
import Idealize.ShloMosaic.Lib.ValueIdx

noncomputable section

open scoped BigOperators

namespace Cert.KernelIdeal.Inv

open Cert.KernelIdeal Cert.KernelIdeal.Gen Cert.KernelIdeal.Pay Idealize.ShloMosaic Idealize.ShloMosaic.ValueIdx Idealize.SL.Sem

/-! ## One point is one step of the recursion -/

/-- The online soft-max state of row (b, r) held in a triple of scratch contents. -/
def rowOf (ms ls : Vec Ideal S4x2048x1 .f32) (accs : Vec Ideal S4x2048x128 .f32) (b : Fin 4) (r : Fin 2048) :
    OnlineSoftmax.Row (Fin 128) :=
  ⟨ms (ix3 b r 0), ls (ix3 b r 0), fun c => accs (ix3 b r c)⟩

/-- The body's three stores into the scratch, from a query block x0, a key block x1 and the scratch contents before:
    the new maximum, normaliser and accumulator are one step of the recursion, on the block's scores and with the
    key block's rows as values. -/
theorem step_row (x0 : Vec Ideal S4x2048x128 .f32) (x1 : Vec Ideal S4x1024x128 .f32) (ms ls : Vec Ideal S4x2048x1 .f32)
    (accs : Vec Ideal S4x2048x128 .f32) (b : Fin 4) (r : Fin 2048) :
    rowOf (k0_pay2 (k0_pay9 x0 x1 ms)) (k0_pay12 x0 x1 ms ms ls)
        (k0_pay1 (k0_pay7 x1) (k0_pay10 x0 x1 ms ms) (k0_pay11 x0 x1 ms) accs) b r
      = OnlineSoftmax.step (fun j : Fin 1024 => bsc x0 x1 b r j) (fun (j : Fin 1024) (d : Fin 128) => x1 (ix3 b j d))
          (rowOf ms ls accs b r) := by
  unfold rowOf OnlineSoftmax.step
  rw [pay2_eq, pay9_apply, pay12_apply, pay10_apply]
  simp only [pay1_apply, pay10_apply, pay11_apply, pay9_apply]

/-- What the first point of a row block stores first: maximum -∞, normaliser 0, accumulator 0. -/
theorem start_row (b : Fin 4) (r : Fin 2048) :
    rowOf (k0_pay4 (F := Ideal)) (k0_pay5 (F := Ideal)) (k0_pay6 (F := Ideal)) b r = OnlineSoftmax.start := by
  unfold rowOf OnlineSoftmax.start
  rw [pay4_apply, pay5_apply]
  simp only [pay6_apply]

/-! ## The recursion, named at the arrays the region finds -/

variable (m : (ℓ : Loc nD τ sig) → Buf (Elt Ideal) ℓ)

/-- The patch array as the region finds it (batch, patch, channel). -/
abbrev Karr (c : Dev nD) : Sffa.SK.Idx → EReal := V m c main_v5
/-- The query array as the region finds it (batch, pixel, channel). -/
abbrev Qarr (c : Dev nD) : Sffa.SK.Idx → EReal := V m c main_v7

theorem krun_zero (K Q : Sffa.SK.Idx → EReal) (b : Fin 4) (n : Fin 4096) :
    Sffa.krun K Q b n 0 = OnlineSoftmax.start := rfl

theorem krun_succ (K Q : Sffa.SK.Idx → EReal) (b : Fin 4) (n : Fin 4096) {i : ℕ} (h : i < 4) :
    Sffa.krun K Q b n (i + 1)
      = OnlineSoftmax.step (fun k : Fin 1024 => Sffa.kscore K Q b n (Sffa.blk (⟨i, h⟩, k)))
          (fun (k : Fin 1024) (d : Fin 128) => K (ix3 b (Sffa.blk (⟨i, h⟩, k)) d)) (Sffa.krun K Q b n i) :=
  OnlineSoftmax.run_succ _ _ h

/-- At point t the key block's row j is patch 1024 (t mod 4) + j and the query block's row r is pixel 2048 (t / 4) + r:
    the block's scores are the scores of that pixel against those patches. -/
theorem bsc_iblk (c : Dev nD) (t : Fin cfg0.N) (b : Fin 4) (r : Fin 2048) (j : Fin 1024) :
    bsc (iblk m c 0 t) (iblk m c 1 t) b r j
      = Sffa.kscore (Karr m c) (Qarr m c) b ⟨2048 * (t.val / 4) + r.val, by have := Plumb.tlt t; omega⟩
          (Sffa.blk (⟨t.val % 4, Nat.mod_lt _ (by norm_num)⟩, j)) := by
  unfold bsc bss Sffa.kscore Sffa.kkn Sffa.ssq
  simp only [Plumb.iblk0_apply m c t, Plumb.iblk1_apply m c t]
  rfl

/-- So the step the body takes at point t is the recursion's step for key block t mod 4 of pixel 2048 (t / 4) + r. -/
theorem point_step (c : Dev nD) (t : Fin cfg0.N) (b : Fin 4) (r : Fin 2048)
    (hb : 2048 * (t.val / 4) + r.val < 4096) (hk : t.val % 4 < 4) (R : OnlineSoftmax.Row (Fin 128)) :
    OnlineSoftmax.step (fun j : Fin 1024 => bsc (iblk m c 0 t) (iblk m c 1 t) b r j)
        (fun (j : Fin 1024) (d : Fin 128) => (iblk m c 1 t : Vec Ideal S4x1024x128 .f32) (ix3 b j d)) R
      = OnlineSoftmax.step (fun k : Fin 1024 => Sffa.kscore (Karr m c) (Qarr m c) b ⟨2048 * (t.val / 4) + r.val, hb⟩ (Sffa.blk (⟨t.val % 4, hk⟩, k)))
          (fun (k : Fin 1024) (d : Fin 128) => Karr m c (ix3 b (Sffa.blk (⟨t.val % 4, hk⟩, k)) d)) R := by
  simp only [bsc_iblk m c t, Plumb.iblk1_apply m c t]
  rfl

/-- The recursion's state depends on the pixel and on the number of blocks only through their values. -/
theorem krun_congr (K Q : Sffa.SK.Idx → EReal) (b : Fin 4) (n1 n2 : Fin 4096) (i1 i2 : ℕ) (hn : n1.val = n2.val) (hi : i1 = i2) :
    Sffa.krun K Q b n1 i1 = Sffa.krun K Q b n2 i2 := by
  obtain rfl : n1 = n2 := Fin.ext hn
  subst hi
  rfl

/-! ## The three cases of a point -/

/-- First key block of a row block: one step from the start state. -/
theorem row_A (c : Dev nD) (t : Fin cfg0.N) (h0 : t.val % 4 = 0) (b : Fin 4) (r : Fin 2048) :
    rowOf (outsAt0 m c t.val t.isLt).2.1 (outsAt0 m c t.val t.isLt).2.2.1 (outsAt0 m c t.val t.isLt).2.2.2 b r
      = OnlineSoftmax.step (fun j : Fin 1024 => bsc (iblk m c 0 t) (iblk m c 1 t) b r j)
          (fun (j : Fin 1024) (d : Fin 128) => (iblk m c 1 t : Vec Ideal S4x1024x128 .f32) (ix3 b j d)) OnlineSoftmax.start := by
  have h1 : ¬t.val % 4 = 3 := by omega
  rw [outsAt0_A m c t h0 h1]
  dsimp only
  rw [Pieces.sA0, Pieces.sA1, Pieces.sA2, step_row, start_row]

/-- A middle key block: one step from what the point before left. -/
theorem row_B (c : Dev nD) (t : Fin cfg0.N) (h0 : ¬t.val % 4 = 0) (h1 : ¬t.val % 4 = 3) (b : Fin 4) (r : Fin 2048) :
    rowOf (outsAt0 m c t.val t.isLt).2.1 (outsAt0 m c t.val t.isLt).2.2.1 (outsAt0 m c t.val t.isLt).2.2.2 b r
      = OnlineSoftmax.step (fun j : Fin 1024 => bsc (iblk m c 0 t) (iblk m c 1 t) b r j)
          (fun (j : Fin 1024) (d : Fin 128) => (iblk m c 1 t : Vec Ideal S4x1024x128 .f32) (ix3 b j d))
          (rowOf (outsAt0 m c (t.val - 1) (Nat.lt_of_le_of_lt (Nat.sub_le _ _) t.isLt)).2.1
            (outsAt0 m c (t.val - 1) (Nat.lt_of_le_of_lt (Nat.sub_le _ _) t.isLt)).2.2.1
            (outsAt0 m c (t.val - 1) (Nat.lt_of_le_of_lt (Nat.sub_le _ _) t.isLt)).2.2.2 b r) := by
  rw [outsAt0_B m c t h0 h1]
  dsimp only
  rw [Pieces.sB0, Pieces.sB1, Pieces.sB2, step_row]

/-- The last key block: the same step, -/
theorem row_C (c : Dev nD) (t : Fin cfg0.N) (h0 : ¬t.val % 4 = 0) (h1 : t.val % 4 = 3) (b : Fin 4) (r : Fin 2048) :
    rowOf (outsAt0 m c t.val t.isLt).2.1 (outsAt0 m c t.val t.isLt).2.2.1 (outsAt0 m c t.val t.isLt).2.2.2 b r
      = OnlineSoftmax.step (fun j : Fin 1024 => bsc (iblk m c 0 t) (iblk m c 1 t) b r j)
          (fun (j : Fin 1024) (d : Fin 128) => (iblk m c 1 t : Vec Ideal S4x1024x128 .f32) (ix3 b j d))
          (rowOf (outsAt0 m c (t.val - 1) (Nat.lt_of_le_of_lt (Nat.sub_le _ _) t.isLt)).2.1
            (outsAt0 m c (t.val - 1) (Nat.lt_of_le_of_lt (Nat.sub_le _ _) t.isLt)).2.2.1
            (outsAt0 m c (t.val - 1) (Nat.lt_of_le_of_lt (Nat.sub_le _ _) t.isLt)).2.2.2 b r) := by
  rw [outsAt0_C m c t h0 h1]
  dsimp only
  rw [Pieces.sC0, Pieces.sC1, Pieces.sC2, step_row]

/-- and the output block is stored with the new accumulator over the new normaliser. -/
theorem out_C (c : Dev nD) (t : Fin cfg0.N) (h0 : ¬t.val % 4 = 0) (h1 : t.val % 4 = 3) (b : Fin 4) (r : Fin 2048) (d : Fin 128) :
    ((outsAt0 m c t.val t.isLt).1 : Vec Ideal S4x2048x128 .f32) (ix3 b r d)
      = Ideal.div ((rowOf (outsAt0 m c t.val t.isLt).2.1 (outsAt0 m c t.val t.isLt).2.2.1 (outsAt0 m c t.val t.isLt).2.2.2 b r).acc d)
          ((rowOf (outsAt0 m c t.val t.isLt).2.1 (outsAt0 m c t.val t.isLt).2.2.1 (outsAt0 m c t.val t.isLt).2.2.2 b r).l) := by
  rw [outsAt0_C m c t h0 h1]
  dsimp only
  rw [Pieces.oC2, Pieces.sC1, Pieces.sC2, pay3_apply]
  rfl

/-! ## After every point -/

/-- After point n = 4 qi + ki the scratch rows hold the recursion run over key blocks 0 … ki of pixel 2048 qi + r. -/
theorem rows_eq (c : Dev nD) : ∀ (n : ℕ) (hn : n < cfg0.N) (b : Fin 4) (r : Fin 2048),
    rowOf (outsAt0 m c n hn).2.1 (outsAt0 m c n hn).2.2.1 (outsAt0 m c n hn).2.2.2 b r
      = Sffa.krun (Karr m c) (Qarr m c) b ⟨2048 * (n / 4) + r.val, by have : cfg0.N = 8 := N_0; omega⟩ (n % 4 + 1) := by
  intro n
  induction n with
  | zero =>
    intro hn b r
    rw [row_A m c ⟨0, hn⟩ rfl b r, point_step m c ⟨0, hn⟩ b r (by show 2048 * (0 / 4) + r.val < 4096; omega) (Nat.mod_lt _ (by norm_num)),
      ← krun_zero (Karr m c) (Qarr m c) b ⟨2048 * (0 / 4) + r.val, by omega⟩]
    exact (krun_succ (Karr m c) (Qarr m c) b _ (by norm_num : 0 < 4)).symm
  | succ n ih =>
    intro hn b r
    have hN : cfg0.N = 8 := N_0
    have hk : (n + 1) % 4 < 4 := Nat.mod_lt _ (by norm_num)
    have hb : 2048 * ((n + 1) / 4) + r.val < 4096 := by omega
    refine Eq.trans ?_ (krun_succ (Karr m c) (Qarr m c) b ⟨2048 * ((n + 1) / 4) + r.val, hb⟩ hk).symm
    by_cases h0 : (n + 1) % 4 = 0
    · rw [row_A m c ⟨n + 1, hn⟩ h0 b r, point_step m c ⟨n + 1, hn⟩ b r hb hk]
      refine congrArg _ ?_
      exact ((krun_congr (Karr m c) (Qarr m c) b _ _ _ _ rfl h0).trans (krun_zero _ _ _ _)).symm
    · have hstep : rowOf (outsAt0 m c (n + 1) hn).2.1 (outsAt0 m c (n + 1) hn).2.2.1 (outsAt0 m c (n + 1) hn).2.2.2 b r
          = OnlineSoftmax.step (fun j : Fin 1024 => bsc (iblk m c 0 ⟨n + 1, hn⟩) (iblk m c 1 ⟨n + 1, hn⟩) b r j)
              (fun (j : Fin 1024) (d : Fin 128) => (iblk m c 1 ⟨n + 1, hn⟩ : Vec Ideal S4x1024x128 .f32) (ix3 b j d))
              (rowOf (outsAt0 m c n (Nat.lt_of_succ_lt hn)).2.1 (outsAt0 m c n (Nat.lt_of_succ_lt hn)).2.2.1
                (outsAt0 m c n (Nat.lt_of_succ_lt hn)).2.2.2 b r) := by
        by_cases h1 : (n + 1) % 4 = 3
        · exact row_C m c ⟨n + 1, hn⟩ h0 h1 b r
        · exact row_B m c ⟨n + 1, hn⟩ h0 h1 b r
      rw [hstep, point_step m c ⟨n + 1, hn⟩ b r hb hk, ih (Nat.lt_of_succ_lt hn) b r]
      refine congrArg _ ?_
      exact krun_congr (Karr m c) (Qarr m c) b _ _ _ _ (by show 2048 * (n / 4) + r.val = 2048 * ((n + 1) / 4) + r.val; omega) (by omega)

/-- At the last key block of row block qi the output block holds, at (b, r, d), the blockwise result of pixel 2048 qi + r. -/
theorem out_eq (c : Dev nD) (t : Fin cfg0.N) (h1 : t.val % 4 = 3) (b : Fin 4) (r : Fin 2048) (d : Fin 128) :
    ((outsAt0 m c t.val t.isLt).1 : Vec Ideal S4x2048x128 .f32) (ix3 b r d)
      = Sffa.kout (Karr m c) (Qarr m c) b ⟨2048 * (t.val / 4) + r.val, by have := Plumb.tlt t; omega⟩ d := by
  have h0 : ¬t.val % 4 = 0 := by omega
  rw [out_C m c t h0 h1 b r d, rows_eq m c t.val t.isLt b r]
  unfold Sffa.kout
  rw [krun_congr (Karr m c) (Qarr m c) b _ ⟨2048 * (t.val / 4) + r.val, by have := Plumb.tlt t; omega⟩ (t.val % 4 + 1) 4 rfl (by omega)]

end Cert.KernelIdeal.Inv

end
-- ==== Proof.RefAgg.lean ====
/-
  The reference program computes the attention of the specification: its last contraction, read at batch b, channel c
  and pixel n, is the specification's weighted average of the patch vectors, stated over the program's own patch array
  K (the masked, transposed features plus the small constant) and feature array X (the reshaped features).

  The proof walks the program's stages in order. Each stage is read at an index given by its coordinates: the sum of
  squares of a patch, the normalised patch, the score (an inner product over the channels), the largest score over the
  patches (a fold of max from -∞), the exponential of the shifted score, the normaliser (a sum over the patches), the
  weight, and the final contraction over the patches. The program's literal zero is 0 and its literal -∞ is ⊥, so
  0 + s = s and max ⊥ s = s remove the initial values of the sums and the outer maximum.
-/
import proofs.«135170_j81827716923690_2_alg».proof.Proof.Gen.ReferenceIdeal.Read
import proofs.«135170_j81827716923690_2_alg».proof.Proof.Spec
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S4x128x64x64, .f32⟩ : BufTy).Contents (Elt Ideal)) (x1 : (⟨S4x1x64x64, .f32⟩ : BufTy).Contents (Elt Ideal))

/-- The literal -∞ is the bottom element of the extended reals. -/
theorem ofBits_neg_inf : (Ideal.ofBits .f32 0xFF800000#32 : EReal) = ⊥ := by
  simp [Ideal.ofBits, Ideal.ieee]

/-! ## The index maps of the stages, at an index given by its coordinates -/

theorem idx_v7 (b : Fin 4) (p : Fin 4096) (k : Fin 128) : idx_main_v7 (ix2 b p) k = ix3 b p k :=
  funext fun a => Fin.ext (by match a with | ⟨0, _⟩ => rfl | ⟨1, _⟩ => rfl | ⟨2, _⟩ => rfl)

theorem idx_v8_v10 (b : Fin 4) (p : Fin 4096) (c : Fin 128) : idx_main_v8 (idx_main_v10 (ix3 b p c)) = ix2 b p :=
  funext fun a => Fin.ext (by match a with | ⟨0, _⟩ => rfl | ⟨1, _⟩ => rfl)

theorem lidx_v13 (b : Fin 4) (p n : Fin 4096) (k : Fin 128) : lidx_main_v13 (ix3 b p n) k = ix3 b p k :=
  funext fun a => Fin.ext (by match a with | ⟨0, _⟩ => rfl | ⟨1, _⟩ => rfl | ⟨2, _⟩ => rfl)

theorem ridx_v13 (b : Fin 4) (p n : Fin 4096) (k : Fin 128) : ridx_main_v13 (ix3 b p n) k = ix3 b k n :=
  funext fun a => Fin.ext (by match a with | ⟨0, _⟩ => rfl | ⟨1, _⟩ => rfl | ⟨2, _⟩ => rfl)

theorem idx_v17_v18 (b : Fin 4) (p n : Fin 4096) : idx_main_v17 (idx_main_v18 (ix3 b p n)) = ix2 b n :=
  funext fun a => Fin.ext (by match a with | ⟨0, _⟩ => rfl | ⟨1, _⟩ => rfl)

theorem idx_v21 (b : Fin 4) (n k : Fin 4096) : idx_main_v21 (ix2 b n) k = ix3 b k n :=
  funext fun a => Fin.ext (by match a with | ⟨0, _⟩ => rfl | ⟨1, _⟩ => rfl | ⟨2, _⟩ => rfl)

theorem idx_v22_v23 (b : Fin 4) (p n : Fin 4096) : idx_main_v22 (idx_main_v23 (ix3 b p n)) = ix2 b n :=
  funext fun a => Fin.ext (by match a with | ⟨0, _⟩ => rfl | ⟨1, _⟩ => rfl)

theorem lidx_v25 (b : Fin 4) (c : Fin 128) (n k : Fin 4096) : lidx_main_v25 (ix3 b c n) k = ix3 b k c :=
  funext fun a => Fin.ext (by match a with | ⟨0, _⟩ => rfl | ⟨1, _⟩ => rfl | ⟨2, _⟩ => rfl)

theorem ridx_v25 (b : Fin 4) (c : Fin 128) (n k : Fin 4096) : ridx_main_v25 (ix3 b c n) k = ix3 b k n :=
  funext fun a => Fin.ext (by match a with | ⟨0, _⟩ => rfl | ⟨1, _⟩ => rfl | ⟨2, _⟩ => rfl)

/-! ## The stages -/

/-- The sum over the channels of the squares of a patch. -/
theorem v7_eq (b : Fin 4) (p : Fin 4096) :
    val_main_v7 (F := Ideal) x0 x1 (ix2 b p) = Sffa.ssq (val_main_v5 (F := Ideal) x0 x1) b p := by
  rw [val_main_v7_apply, val_main_cst_0_apply]
  simp only [idx_v7, val_main_v6_apply, Ideal.mulf_def, Ideal.ofBits_def, Ideal.ofBits_zero_f32, zero_add]
  rfl

/-- A patch's entry divided by the patch's Euclidean norm. -/
theorem v11_eq (b : Fin 4) (p : Fin 4096) (c : Fin 128) :
    val_main_v11 (F := Ideal) x0 x1 (ix3 b p c) = Sffa.knorm (val_main_v5 (F := Ideal) x0 x1) b p c := by
  rw [val_main_v11_apply, val_main_v10_apply, val_main_v9_apply, val_main_v8_apply, idx_v8_v10, v7_eq]
  simp only [Ideal.hostDivf_def, Ideal.hostUnary_sqrt_def]
  rfl

/-- The score of a patch at a pixel: the inner product over the channels. -/
theorem v13_eq (b : Fin 4) (p n : Fin 4096) :
    val_main_v13 (F := Ideal) x0 x1 (ix3 b p n)
      = Sffa.score (val_main_v5 (F := Ideal) x0 x1) (val_main_v12 (F := Ideal) x0) b p n := by
  rw [val_main_v13_apply]
  simp only [lidx_v13, ridx_v13, v11_eq]
  rfl

/-- The index a reduction over the patch axis reads: the result's index with the patch inserted. -/
theorem lift_v14 (h : Shape.Reduces S4x4096x4096 [1] S4x4096) (b : Fin 4) (n p : Fin 4096) :
    h.lift (ix2 b n) p = ix3 b p n :=
  funext fun a => Fin.ext (by match a with | ⟨0, _⟩ => rfl | ⟨1, _⟩ => rfl | ⟨2, _⟩ => rfl)

/-- The largest score at a pixel, folded from -∞ over the patches. -/
theorem v14_eq (b : Fin 4) (n : Fin 4096) :
    val_main_v14 (F := Ideal) x0 x1 (ix2 b n)
      = Sffa.smax (val_main_v5 (F := Ideal) x0 x1) (val_main_v12 (F := Ideal) x0) b n := by
  have h : Shape.Reduces S4x4096x4096 [1] S4x4096 := by decide
  unfold val_main_v14
  rw [Host.reduce_eq_fold_single _ _ _ reducesTo_S4x4096x4096_S4x4096_d1 h]
  rw [val_main_cst_1_apply, Ideal.ofBits_def, ofBits_neg_inf]
  unfold Sffa.smax
  have key : ∀ p : Fin 4096, val_main_v13 (F := Ideal) x0 x1 (h.lift (ix2 b n) p)
      = Sffa.score (val_main_v5 (F := Ideal) x0 x1) (val_main_v12 (F := Ideal) x0) b p n := fun p => by
    rw [lift_v14, v13_eq]
  exact Finset.fold_congr (fun p _ => key p)

/-- The outer maximum with -∞ changes nothing. -/
theorem v16_eq (b : Fin 4) (n : Fin 4096) :
    val_main_v16 (F := Ideal) x0 x1 (ix2 b n)
      = Sffa.smax (val_main_v5 (F := Ideal) x0 x1) (val_main_v12 (F := Ideal) x0) b n := by
  rw [val_main_v16_apply, val_main_v15_apply, val_main_cst_2_apply, v14_eq, Ideal.ofBits_def, ofBits_neg_inf,
    Ideal.maximumf_def]
  exact max_bot_left _

/-- The exponential of the score less the largest score. -/
theorem v20_eq (b : Fin 4) (p n : Fin 4096) :
    val_main_v20 (F := Ideal) x0 x1 (ix3 b p n)
      = Sffa.sexp (val_main_v5 (F := Ideal) x0 x1) (val_main_v12 (F := Ideal) x0) b p n := by
  rw [val_main_v20_apply, val_main_v19_apply, val_main_v18_apply, val_main_v17_apply, idx_v17_v18, v16_eq, v13_eq,
    Ideal.hostUnary_exp_def, Ideal.subf_def]
  rfl

/-- The soft-max normaliser: the sum of the exponentials over the patches. -/
theorem v21_eq (b : Fin 4) (n : Fin 4096) :
    val_main_v21 (F := Ideal) x0 x1 (ix2 b n)
      = Sffa.sden (val_main_v5 (F := Ideal) x0 x1) (val_main_v12 (F := Ideal) x0) b n := by
  rw [val_main_v21_apply, val_main_cst_3_apply]
  simp only [idx_v21, v20_eq, Ideal.ofBits_def, Ideal.ofBits_zero_f32, zero_add]
  rfl

/-- The soft-max weight of a patch at a pixel. -/
theorem v24_eq (b : Fin 4) (p n : Fin 4096) :
    val_main_v24 (F := Ideal) x0 x1 (ix3 b p n)
      = Sffa.attn (val_main_v5 (F := Ideal) x0 x1) (val_main_v12 (F := Ideal) x0) b p n := by
  rw [val_main_v24_apply, val_main_v23_apply, val_main_v22_apply, idx_v22_v23, v21_eq, v20_eq, Ideal.hostDivf_def]
  rfl

/-- The reference's last contraction is the specification's attention-weighted average of the patch vectors. -/
theorem agg_eq (b : Fin 4) (c : Fin 128) (n : Fin 4096) :
    val_main_v25 (F := Ideal) x0 x1 (ix3 b c n)
      = Sffa.agg (val_main_v5 (F := Ideal) x0 x1) (val_main_v12 (F := Ideal) x0) b c n := by
  rw [val_main_v25_apply]
  simp only [lidx_v25, ridx_v25, v24_eq]
  rfl

end Cert.ReferenceIdeal.RefValue

end
-- ==== Proof.PreFacts.lean ====
/-
  What the precondition gives. The precondition is the conjunction of three "all" tests: every entry of the features
  has absolute value below +∞, every entry of the mask has absolute value below +∞, and for every batch and patch the
  sum over the channels of the squares of the patch array is above zero. Hence every entry of the two arguments is a
  real number, every patch's sum of squares is positive, and, sums and products of reals being real, the patch array
  and the reshaped feature array have real entries.
-/
import proofs.«135170_j81827716923690_2_alg».proof.Proof.Gen.ReferenceIdeal.Read
import proofs.«135170_j81827716923690_2_alg».proof.Proof.Gen.Pre_finite_inputs
import proofs.«135170_j81827716923690_2_alg».proof.Proof.Spec
import Idealize.ShloMosaic.Lib.ReduceAll
import Idealize.ShloMosaic.PureOps.Ideal.Laws

noncomputable section

open scoped BigOperators

namespace Cert.PreFacts

open Idealize.ShloMosaic Idealize.ShloMosaic.ValueIdx

/-- The scalar shape has one index. -/
instance : Subsingleton Cert.Pre_finite_inputs.S_.Idx := ⟨fun a b => funext fun d => d.elim0⟩

/-! ## The three element tests -/

/-- The literal +∞ is the top element of the extended reals. -/
theorem ofBits_pos_inf : (Ideal.ofBits .f32 0x7F800000#32 : EReal) = ⊤ := by
  simp [Ideal.ofBits, Ideal.ieee]

/-- An extended real whose absolute value is below +∞ is a real. -/
theorem real_of_abs_lt (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

/-- The test "s is above zero" passes exactly when 0 < s. -/
theorem pos_of_cmp_ogt (s : EReal) (h : Ideal.cmp .ogt s (Ideal.ofBits .f32 0x00000000#32) = 1#1) : 0 < s := by
  rw [Ideal.ofBits_zero_f32] at h
  by_contra hn
  simp [Ideal.cmp, hn] at h

/-- The small constant added to the patch array is a real. -/
theorem eps_real : ∃ r : ℝ, (Ideal.ofBits .f32 0x33D6BF95#32 : EReal) = (r : EReal) := by
  have e : (Ideal.ofBits .f32 0x33D6BF95#32 : EReal) = Ideal.ieee 8 23 (0x33D6BF95#32 : BitVec 32) := rfl
  rw [e]
  unfold Ideal.ieee
  simp only []
  rw [if_neg (by decide), if_neg (by decide)]
  exact ⟨_, rfl⟩

/-- A scalar broadcast to any shape is the scalar's one element everywhere. -/
theorem bcast_scalar_apply {α : Type} {t : Shape}
    (h : Cert.Pre_finite_inputs.S_.BroadcastsInDim t (![] : Fin 0 → Fin t.rank))
    (x : Cert.Pre_finite_inputs.S_.Idx → α) (j : t.Idx) : broadcastInDim t ![] h x j = x ix0 :=
  broadcastInDim_apply _ h x j ix0 (fun a => a.elim0)

section

open Cert.ReferenceIdeal Cert.ReferenceIdeal.Gen Cert.ReferenceIdeal.Read

variable (x0 : (⟨S4x128x64x64, .f32⟩ : BufTy).Contents (Elt Ideal)) (x1 : (⟨S4x1x64x64, .f32⟩ : BufTy).Contents (Elt Ideal))

/-- The precondition, split into its three "all" tests read at every index. -/
theorem decode (h : Cert.Pre_finite_inputs.fn (F := Ideal) x0 x1 = fun _ => 1#1) :
    (∀ i, Ideal.cmp .olt (max (x0 i : EReal) (-(x0 i : EReal))) (Ideal.ofBits .f32 0x7F800000#32) = 1#1)
    ∧ (∀ i, Ideal.cmp .olt (max (x1 i : EReal) (-(x1 i : EReal))) (Ideal.ofBits .f32 0x7F800000#32) = 1#1)
    ∧ (∀ j, Ideal.cmp .ogt (val_main_v7 (F := Ideal) x0 x1 j) (Ideal.ofBits .f32 0x00000000#32) = 1#1) := by
  have h0 := congrFun h ValueIdx.ix0
  dsimp only [Cert.Pre_finite_inputs.fn, Cert.Pre_finite_inputs.fn_part1] at h0
  obtain ⟨h12, h3⟩ := IntOp.andi_eq_one.1 h0
  obtain ⟨h1, h2⟩ := IntOp.andi_eq_one.1 h12
  refine ⟨fun i => ?_, fun i => ?_, fun j => ?_⟩
  · have := Host.reduce_andi_all _ _ _ _ _ h1 i
    rw [cmpf_apply, bcast_scalar_apply] at this
    exact this
  · have := Host.reduce_andi_all _ _ _ _ _ h2 i
    rw [cmpf_apply, bcast_scalar_apply] at this
    exact this
  · have := Host.reduce_andi_all _ _ _ _ _ h3 j
    rw [cmpf_apply, bcast_scalar_apply] at this
    exact this

variable {x0 x1}

/-- Every entry of the features is a real. -/
theorem fin0 (h : Cert.Pre_finite_inputs.fn (F := Ideal) x0 x1 = fun _ => 1#1) (i : S4x128x64x64.Idx) :
    ∃ r : ℝ, x0 i = (r : EReal) :=
  real_of_abs_lt _ ((decode x0 x1 h).1 i)

/-- Every entry of the mask is a real. -/
theorem fin1 (h : Cert.Pre_finite_inputs.fn (F := Ideal) x0 x1 = fun _ => 1#1) (i : S4x1x64x64.Idx) :
    ∃ r : ℝ, x1 i = (r : EReal) :=
  real_of_abs_lt _ ((decode x0 x1 h).2.1 i)

/-- The index the sum over the channels reads: batch, patch, channel. -/
theorem idx_v7 (b : Fin 4) (p : Fin 4096) (k : Fin 128) : idx_main_v7 (ix2 b p) k = ix3 b p k :=
  funext fun a => Fin.ext (by match a with | ⟨0, _⟩ => rfl | ⟨1, _⟩ => rfl | ⟨2, _⟩ => rfl)

/-- The program's sum of squares of a patch is the specification's. -/
theorem v7_eq_ssq (x0 : (⟨S4x128x64x64, .f32⟩ : BufTy).Contents (Elt Ideal))
    (x1 : (⟨S4x1x64x64, .f32⟩ : BufTy).Contents (Elt Ideal)) (b : Fin 4) (p : Fin 4096) :
    val_main_v7 (F := Ideal) x0 x1 (ix2 b p) = Sffa.ssq (val_main_v5 (F := Ideal) x0 x1) b p := by
  rw [val_main_v7_apply, val_main_cst_0_apply]
  simp only [idx_v7, val_main_v6_apply, Ideal.mulf_def, Ideal.ofBits_def, Ideal.ofBits_zero_f32, zero_add]
  rfl

/-- Every patch's sum of squares is positive. -/
theorem ssq_pos (h : Cert.Pre_finite_inputs.fn (F := Ideal) x0 x1 = fun _ => 1#1) (b : Fin 4) (p : Fin 4096) :
    0 < Sffa.ssq (val_main_v5 (F := Ideal) x0 x1) b p := by
  rw [← v7_eq_ssq]
  exact pos_of_cmp_ogt _ ((decode x0 x1 h).2.2 (ix2 b p))

/-- Every entry of the patch array is a real: a product of two reals plus a real. -/
theorem K_real (h : Cert.Pre_finite_inputs.fn (F := Ideal) x0 x1 = fun _ => 1#1) (i : S4x4096x128.Idx) :
    ∃ r : ℝ, val_main_v5 (F := Ideal) x0 x1 i = (r : EReal) := by
  obtain ⟨a, ha⟩ := fin0 h (idx_main_v2 (idx_main_v3 i))
  obtain ⟨c, hc⟩ := fin1 h (idx_main_v0 (idx_main_v2 (idx_main_v3 i)))
  obtain ⟨e, he⟩ := eps_real
  refine ⟨a * c + e, ?_⟩
  rw [val_main_v5_apply, val_main_v3_apply, val_main_v2_apply, val_main_v1_apply, val_main_v0_apply,
    val_main_v4_apply, val_main_cst_apply, Ideal.ofBits_def, ha, hc, he, Ideal.mulf_def, Ideal.addf_def,
    EReal.coe_add, EReal.coe_mul]

/-- Every entry of the reshaped feature array is a real. -/
theorem X_real (h : Cert.Pre_finite_inputs.fn (F := Ideal) x0 x1 = fun _ => 1#1) (i : S4x128x4096.Idx) :
    ∃ r : ℝ, val_main_v12 (F := Ideal) x0 i = (r : EReal) := by
  rw [val_main_v12_apply]
  exact fin0 h _

end

end Cert.PreFacts

end
-- ==== Proof.Bridge.lean ====
/-
  The host operations the two programs share, identified.

  Both programs form the patch array K from the arguments by the same five operations, so the array the kernel's region
  finds is the reference's. The kernel's query array is the transpose of the reference's feature array: entry
  (b, n, d) of one is entry (b, d, n) of the other. And both end with the same operations — unflatten to
  [4, 128, 64, 64], times (1 - mask), plus x0 * mask — applied in the kernel to the transposed output array of the
  region and in the reference to its attention-weighted average: if those two arrays agree entry by entry, so do the
  results.
-/
import proofs.«135170_j81827716923690_2_alg».proof.Proof.KernelArray
import proofs.«135170_j81827716923690_2_alg».proof.Proof.Gen.ReferenceIdeal.Read
import Idealize.ShloMosaic.Lib.Pipeline.Value
import Idealize.ShloMosaic.Lib.ValueIdx

noncomputable section

namespace Cert.Bridge

open Idealize.ShloMosaic Idealize.ShloMosaic.ValueIdx

variable (x0 : FVec Ideal Cert.KernelIdeal.S4x128x64x64 .f32) (x1 : FVec Ideal Cert.KernelIdeal.S4x1x64x64 .f32)

/-- The key array the kernel's region finds is the reference's: the same five host operations of the same arguments. -/
theorem K_bridge : Cert.KernelIdeal.Plumb.Kterm x0 x1 = Cert.ReferenceIdeal.Read.val_main_v5 (F := Ideal) x0 x1 := by
  unfold Cert.KernelIdeal.Plumb.Kterm Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_cst
  rfl

/-- The query array the kernel's region finds is the transpose of the reference's flattened first argument:
    its entry `(b, n, d)` is that array's entry `(b, d, n)`. -/
theorem Q_bridge (b : Fin 4) (n : Fin 4096) (d : Fin 128) :
    Cert.KernelIdeal.Plumb.Qterm x0 (ix3 b n d) = Cert.ReferenceIdeal.Read.val_main_v12 (F := Ideal) x0 (ix3 b d n) := by
  unfold Cert.KernelIdeal.Plumb.Qterm
  refine (transpose_apply [0, 2, 1]
    (shapeCast Cert.KernelIdeal.S4x128x4096 x0 Cert.KernelIdeal.Facts₀.shapeCasts_S4x128x64x64_S4x128x4096)
    Cert.KernelIdeal.Facts₀.transposes_S4x128x4096_S4x4096x128_0_2_1 (ix3 b n d) (ix3 b d n) (fun a => match a with
      | ⟨0, _⟩ => rfl
      | ⟨1, _⟩ => rfl
      | ⟨2, _⟩ => rfl)).trans ?_
  rfl

/-- Both programs end with the same host operations — unflatten, times the broadcast complement of the mask, plus
    the masked first argument —, applied by the kernel's program to the transpose of the region's output `O` and by
    the reference to its second product: where `O` is that product transposed, the results are equal. -/
theorem tail_bridge (O : FVec Ideal Cert.KernelIdeal.S4x4096x128 .f32)
    (hO : ∀ (b : Fin 4) (n : Fin 4096) (c : Fin 128),
      O (ix3 b n c) = Cert.ReferenceIdeal.Read.val_main_v25 (F := Ideal) x0 x1 (ix3 b c n)) :
    Cert.KernelIdeal.Plumb.tail x0 x1 O = Cert.ReferenceIdeal.Read.val_main_v31 (F := Ideal) x0 x1 := by
  have e : transpose Cert.KernelIdeal.S4x128x4096 [0, 2, 1] O Cert.KernelIdeal.Facts₀.transposes_S4x4096x128_S4x128x4096_0_2_1
      = Cert.ReferenceIdeal.Read.val_main_v25 (F := Ideal) x0 x1 := by
    funext j
    obtain ⟨b, c, n, rfl⟩ : ∃ (b : Fin 4) (c : Fin 128) (n : Fin 4096), j = ix3 b c n :=
      ⟨j 0, j 1, j 2, eq_ix3 (n0 := 4) (n1 := 128) (n2 := 4096) j⟩
    exact (transpose_apply [0, 2, 1] O Cert.KernelIdeal.Facts₀.transposes_S4x4096x128_S4x128x4096_0_2_1 (ix3 b c n) (ix3 b n c)
      (fun a => match a with
        | ⟨0, _⟩ => rfl
        | ⟨1, _⟩ => rfl
        | ⟨2, _⟩ => rfl)).trans (hO b n c)
  unfold Cert.KernelIdeal.Plumb.tail
  rw [e]
  unfold Cert.ReferenceIdeal.Read.val_main_v31 Cert.ReferenceIdeal.Read.val_main_v30 Cert.ReferenceIdeal.Read.val_main_v29
    Cert.ReferenceIdeal.Read.val_main_v28 Cert.ReferenceIdeal.Read.val_main_v27 Cert.ReferenceIdeal.Read.val_main_cst_4
    Cert.ReferenceIdeal.Read.val_main_v26 Cert.ReferenceIdeal.Read.val_main_v1 Cert.ReferenceIdeal.Read.val_main_v0
  rfl

end Cert.Bridge

end
-- ==== Proof.lean ====
/-
  The certificate: the flash-attention kernel against its jnp reference, over the extended reals.

  Both programs compute, from inputs x0 [4,128,64,64] and mask x1 [4,1,64,64]: the background x0 * x1, the patch array
  K = (background re-laid [batch, pixel, channel]) + 1e-7, an attention-weighted average of the patches per pixel, and
  finally background + average * (1 - x1). The reference scores every patch p, normalised by the square root of its sum of
  squares, against every pixel n, soft-maxes the scores over the patches and averages K with these weights (Spec.lean's
  agg). The kernel visits, for each block of 2048 pixels, the 4096 patches in four blocks of 1024 and keeps an online
  soft-max state per pixel (running maximum, normaliser, accumulator), scaling each patch by the reciprocal square root
  of its sum of squares; after the last block it stores accumulator / normaliser (Online.lean's kout).

  The statement carries, beside finiteness of the inputs, the condition that every patch has a positive sum of squares:
  there the reference divides zero by zero. Under it x * rsqrt s = x / sqrt s, the scores are real numbers, and the
  online recursion equals the soft-max-weighted sum (the online soft-max theorem), so kout = agg; the host operations
  around are the same in both programs.
-/
import proofs.«135170_j81827716923690_2_alg».proof.Defs
import proofs.«135170_j81827716923690_2_alg».proof.Proof.Gen.Kernel
import proofs.«135170_j81827716923690_2_alg».proof.Proof.Gen.Kernel.Frame
import proofs.«135170_j81827716923690_2_alg».proof.Proof.Gen.KernelIdeal
import proofs.«135170_j81827716923690_2_alg».proof.Proof.Gen.KernelIdeal.Frame
import proofs.«135170_j81827716923690_2_alg».proof.Proof.Gen.ReferenceIdeal
import proofs.«135170_j81827716923690_2_alg».proof.Proof.Gen.ReferenceIdeal.Run
import proofs.«135170_j81827716923690_2_alg».proof.Proof.Gen.ReferenceIdeal.Read
import proofs.«135170_j81827716923690_2_alg».proof.Proof.Gen.Pre_finite_inputs
import proofs.«135170_j81827716923690_2_alg».proof.Proof.Spec
import proofs.«135170_j81827716923690_2_alg».proof.Proof.LibOnlineSoftmax
import proofs.«135170_j81827716923690_2_alg».proof.Proof.Online
import proofs.«135170_j81827716923690_2_alg».proof.Proof.Pieces
import proofs.«135170_j81827716923690_2_alg».proof.Proof.Payload
import proofs.«135170_j81827716923690_2_alg».proof.Proof.KernelArray
import proofs.«135170_j81827716923690_2_alg».proof.Proof.Invariant
import proofs.«135170_j81827716923690_2_alg».proof.Proof.RefAgg
import proofs.«135170_j81827716923690_2_alg».proof.Proof.PreFacts
import proofs.«135170_j81827716923690_2_alg».proof.Proof.Bridge
import Idealize.ShloMosaic.Adequacy
import Idealize.ShloMosaic.Init

noncomputable section

namespace Cert.Proof

open Idealize.ShloMosaic Idealize.ShloMosaic.ValueIdx Idealize.SL.Sem

/-- The three frames: the kernel's two are the generated frame certificates; the reference's is its generated run with
    the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The array the kernel's region leaves, for finite inputs whose patches all have a positive sum of squares, is at
    (batch b, pixel n, channel c) the reference's attention-weighted average at (b, c, n). -/
theorem kout_eq_ref (x0 : FVec Ideal Cert.KernelIdeal.S4x128x64x64 .f32) (x1 : FVec Ideal Cert.KernelIdeal.S4x1x64x64 .f32)
    (h : Cert.Pre_finite_inputs.fn (F := Ideal) x0 x1 = fun _ => 1#1) (b : Fin 4) (n : Fin 4096) (c : Fin 128) :
    Sffa.kout (Cert.KernelIdeal.Plumb.Kterm x0 x1) (Cert.KernelIdeal.Plumb.Qterm x0) b n c
      = Cert.ReferenceIdeal.Read.val_main_v25 (F := Ideal) x0 x1 (ix3 b c n) := by
  rw [Cert.ReferenceIdeal.RefValue.agg_eq x0 x1 b c n, Cert.Bridge.K_bridge x0 x1]
  exact Sffa.kout_eq_agg _ _ _ (Cert.PreFacts.K_real h) (Cert.PreFacts.X_real h)
    (fun b n d => Cert.Bridge.Q_bridge x0 b n d) (Cert.PreFacts.ssq_pos h) b c n

/-- At the ideal instance both programs end with the same result: the shared host operations applied to arrays that
    agree entry by entry. -/
theorem algebraic : Cert.algebraic_KernelIdeal_ReferenceIdeal := by
  intro m ρ m' ρ' hpre hagree
  -- the array the region leaves: at (batch, pixel, channel) the blockwise result
  have hO : ∀ c : Dev Cert.KernelIdeal.nD, (Cert.KernelIdeal.Gen.dats m 0 c).arrAt 2 Cert.KernelIdeal.cfg0.N
      = (fun i => Sffa.kout (Cert.KernelIdeal.Inv.Karr m c) (Cert.KernelIdeal.Inv.Qarr m c) (i 0) (i 1) (i 2) :
          FVec Ideal Cert.KernelIdeal.S4x4096x128 .f32) :=
    fun c => Cert.KernelIdeal.Plumb.final_of m c _ (fun t ht b r d => Cert.KernelIdeal.Inv.out_eq m c t ht b r d)
  have hrun := Cert.KernelIdeal.Plumb.run_of m ρ
    (fun c => (fun i => Sffa.kout (Cert.KernelIdeal.Inv.Karr m c) (Cert.KernelIdeal.Inv.Qarr m c) (i 0) (i 1) (i 2) :
      FVec Ideal Cert.KernelIdeal.S4x4096x128 .f32)) hO
  refine ⟨_, hrun, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2]
  refine (Cert.Bridge.tail_bridge _ _ _ (fun b n d => ?_)).symm
  show Sffa.kout (Cert.KernelIdeal.Inv.Karr m c) (Cert.KernelIdeal.Inv.Qarr m c) b n d = _
  unfold Cert.KernelIdeal.Inv.Karr Cert.KernelIdeal.Inv.Qarr
  rw [Cert.KernelIdeal.Plumb.V5_eq m c, Cert.KernelIdeal.Plumb.V7_eq m c]
  exact kout_eq_ref _ _ (hpre c) b n d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
